-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2x128 .f32) (main_arg9 : FVec F S2 .f32) (main_arg10 : FVec F S2x128 .f32) (main_v33 : IVec S_ 1) : IVec S_ 1 :=
  let main_v34 : FVec F S2x128 .f32 := Host.absf main_arg8
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S2x128 .f32 := Host.absf main_arg10
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S2x128 .f32) (main_arg9 : FVec F S2 .f32) (main_arg10 : FVec F S2x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S2x128 .f32) (main_arg9 : FVec F S2 .f32) (main_arg10 : FVec F S2x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S1x128 : Shape := ⟨2, ![1, 128]⟩
abbrev S100000x2 : Shape := ⟨2, ![100000, 2]⟩
abbrev S5000x2 : Shape := ⟨2, ![5000, 2]⟩
abbrev S1x2 : Shape := ⟨2, ![1, 2]⟩

abbrev nBuf : Space → Nat
  | .hbm => 77
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S2x128, .f32⟩
  | .hbm, ⟨9, _⟩ => ⟨S2, .f32⟩
  | .hbm, ⟨10, _⟩ => ⟨S2x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S2x128, .f32⟩
  | .local _ .vmem, ⟨23, _⟩ => ⟨S2, .f32⟩
  | .local _ .vmem, ⟨24, _⟩ => ⟨S2x128, .f32⟩
  | .local _ .vmem, ⟨25, _⟩ => ⟨S5000x2, .f32⟩
  | .local _ .vmem, ⟨26, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S2x128_S2x128_0_0 : ∀ a, (![0, 0] : Fin 2 → Nat) a + S2x128.size a ≤ S2x128.size a
  h_S2x128 : 0 < S2x128.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_1_0_0_n_n_wf : DotDims.WF S5000x128 S128x128 S5000x128 [1] [1] [0] [0] [] []
  dot_S5000x128_S2x128_S5000x2_1_1_0_0_n_n_wf : DotDims.WF S5000x128 S2x128 S5000x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x128.size a ≤ S2x128.size a
  hwx2_2 : ∀ i : grid2.Coords, EltTy.bits .f32 = 32 ∨ (Rect.block (s := S2x128) S2x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2.size a ≤ S2.size a
  hwx2_3 : ∀ i : grid2.Coords, EltTy.bits .f32 = 32 ∨ (Rect.block (s := S2) S2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2x128.size a ≤ S2x128.size a
  hwx2_4 : ∀ i : grid2.Coords, EltTy.bits .f32 = 32 ∨ (Rect.block (s := S2x128) S2x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x2.size a ≤ S100000x2.size a
  hwx2_5 : ∀ i : grid2.Coords, EltTy.bits .f32 = 32 ∨ (Rect.block (s := S100000x2) S5000x2.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def dot_S5000x128_S2x128_S5000x2_1_1_0_0_n_n : DotDims S5000x128 S2x128 S5000x2 where
  lhsContracting := [1]
  rhsContracting := [1]
  lhsNonContracting := [0]
  rhsNonContracting := [0]
  lhsBatch := []
  rhsBatch := []
  wf := dot_S5000x128_S2x128_S5000x2_1_1_0_0_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S2x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S2x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S5000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x2 : Shape := ⟨2, ![128, 2]⟩
abbrev S100000x2 : Shape := ⟨2, ![100000, 2]⟩
abbrev S1x2 : Shape := ⟨2, ![1, 2]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S2x128, .f32⟩
  | .hbm, ⟨9, _⟩ => ⟨S2, .f32⟩
  | .hbm, ⟨10, _⟩ => ⟨S2x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S128x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S128x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S128x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x128, .f32⟩
  | .hbm, ⟨98, _⟩ => ⟨S_, .f32⟩
  | .hbm, ⟨99, _⟩ => ⟨S100000x128, .f32⟩
  | .hbm, ⟨100, _⟩ => ⟨S1600000x1, .i32⟩
  | .hbm, ⟨101, _⟩ => ⟨S100000x128, .f32⟩
  | .hbm, ⟨102, _⟩ => ⟨S_, .f32⟩
  | .hbm, ⟨103, _⟩ => ⟨S1600000, .f32⟩
  | .hbm, ⟨104, _⟩ => ⟨S_, .f32⟩
  | .hbm, ⟨105, _⟩ => ⟨S100000, .f32⟩
  | .hbm, ⟨106, _⟩ => ⟨S1600000x1, .i32⟩
  | .hbm, ⟨107, _⟩ => ⟨S100000, .f32⟩
  | .hbm, ⟨108, _⟩ => ⟨S_, .f32⟩
  | .hbm, ⟨109, _⟩ => ⟨S_, .f32⟩
  | .hbm, ⟨110, _⟩ => ⟨S100000, .f32⟩
  | .hbm, ⟨111, _⟩ => ⟨S100000, .f32⟩
  | .hbm, ⟨112, _⟩ => ⟨S100000x1, .f32⟩
  | .hbm, ⟨113, _⟩ => ⟨S100000x128, .f32⟩
  | .hbm, ⟨114, _⟩ => ⟨S100000x128, .f32⟩
  | .hbm, ⟨115, _⟩ => ⟨S128x2, .f32⟩
  | .hbm, ⟨116, _⟩ => ⟨S100000x2, .f32⟩
  | .hbm, ⟨117, _⟩ => ⟨S1x2, .f32⟩
  | .hbm, ⟨118, _⟩ => ⟨S100000x2, .f32⟩
  | .hbm, ⟨119, _⟩ => ⟨S100000x2, .f32⟩
  | .hbm, ⟨120, _⟩ => ⟨S128x2, .f32⟩
  | .hbm, ⟨121, _⟩ => ⟨S100000x2, .f32⟩
  | .hbm, ⟨122, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call1_cst : Ref sig .tc := ⟨.hbm, 49, rfl⟩
abbrev main_call1_v0 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_call2_v0 : Ref sig .tc := ⟨.hbm, 72, rfl⟩
abbrev main_call2_v1 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call3_cst : Ref sig .tc := ⟨.hbm, 86, rfl⟩
abbrev main_call3_v0 : Ref sig .tc := ⟨.hbm, 87, rfl⟩
abbrev main_v57 : Ref sig .tc := ⟨.hbm, 88, rfl⟩
abbrev main_c_10 : Ref sig .tc := ⟨.hbm, 89, rfl⟩
abbrev main_v58 : Ref sig .tc := ⟨.hbm, 90, rfl⟩
abbrev main_v59 : Ref sig .tc := ⟨.hbm, 91, rfl⟩
abbrev main_c_11 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_cst_14 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_15 : Ref sig .tc := ⟨.hbm, 108, rfl⟩
abbrev main_call4_v0 : Ref sig .tc := ⟨.hbm, 109, rfl⟩
abbrev main_call4_v1 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S2x128_S128x2_1_0 : S2x128.Transposes [1, 0] S128x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KerRun.lean ====
/-
  The first program's run with its result NAMED.

  The program is eight segments: three stretches of host operations, then three times a kernel region followed (but
  for the last) by a stretch of host operations.  The buffer contents at the last boundary, `W8`, hold every unscoped
  buffer when the run ends; read at the result buffer this names the result, and read at an argument it is the
  argument as launched.  So every weakly fair execution terminates, faults nowhere, leaves the result at
  `W8 … main_v50` and the arguments unchanged.
-/
import proofs.«164896_j82386062671991_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the eight segments from the launch memory: the result buffer ends at the last boundary's contents, the
    arguments as launched. -/
theorem run : θ_run defs (onTc (τ := τ) (main (F := F))) ⟨m, fun _ => 0, ρ⟩ (fun r => ∀ c : Dev nD,
      r.2.mem ((c.tc : Thread nD τ).loc main_v50) = W8 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v50 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.RunValue

end
-- ==== Proof.KerHost.lean ====
/-
  The first program's host operations, read as functions of what they find.

  Between its kernel regions the program computes, on the host: the source and destination rows of the edge list; the
  in-degree of every node (ones scattered by destination and added); the degree clipped below at one and its
  reciprocal as a column; and, once before each region, the neighbour mean of the current features — the features
  gathered by (wrapped) source, scattered by destination and added, then multiplied by the reciprocal column.  Each
  stretch of operations is read here, for ANY contents of the buffers it starts from, as these named functions of
  the buffers it reads; and each buffer a stretch does not write is read through it unchanged.
-/
import proofs.«164896_j82386062671991_1_alg».proof.Proof.Gen.KernelIdeal.Frame
import Idealize.ShloMosaic.Lib.StableHlo.Run
import Idealize.ShloMosaic.PureOps.Ideal

set_option maxRecDepth 16384

noncomputable section

namespace Cert.KernelIdeal.HostVal

open Cert.KernelIdeal Cert.KernelIdeal.Gen Idealize.ShloMosaic Idealize.ShloMosaic.TcCoe Idealize.ShloMosaic.StableHlo
open Idealize.SL.Sem Idealize.ShloMosaic.Pipeline

/-! ## The named functions -/

/-- Row 0 of the edge list: the source of every edge. -/
def src (e : IVec S2x1600000 32) : IVec S1600000 32 :=
  shapeCast S1600000 (extractStridedSlice S1x1600000 ![0, 0] e slices_S2x1600000_S1x1600000_0_0) shapeCasts_S1x1600000_S1600000
/-- Row 1 of the edge list: the destination of every edge. -/
def dst (e : IVec S2x1600000 32) : IVec S1600000 32 :=
  shapeCast S1600000 (extractStridedSlice S1x1600000 ![1, 0] e slices_S2x1600000_S1x1600000_1_0) shapeCasts_S1x1600000_S1600000
/-- The in-degrees: a one per edge, scattered by destination and added into zeros. -/
def deg (d : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 d)
    (broadcastInDim S1600000 ![] bcast_S_S1600000 (constant (F := Ideal) S_ .f32 0x3F800000#32))
/-- The degrees clipped below at the scalar `one`. -/
def clipBy (one : FVec Ideal S_ .f32) (g : FVec Ideal S100000 .f32) :
    FVec Ideal S100000 .f32 :=
  maximumf (F := Ideal) (broadcastInDim S100000 ![] bcast_S_S100000 (id one)) g
/-- The reciprocal of the clipped degrees, as a column. -/
def invcol (cl : FVec Ideal S100000 .f32) : FVec Ideal S100000x1 .f32 :=
  broadcastInDim S100000x1 ![0] bcast_S100000_S100000x1_0
    (Host.divf (F := Ideal) (broadcastInDim S100000 ![] bcast_S_S100000 (constant (F := Ideal) S_ .f32 0x3F800000#32)) cl)
/-- The neighbour sums: the features gathered by source (a negative index wrapped by the node count), scattered by
    destination and added into zeros. -/
def agg (d s : IVec S1600000 32) (X : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 X
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))
/-- The neighbour means: the sums times the reciprocal column repeated along the rows. -/
def mean (d s : IVec S1600000 32) (X : FVec Ideal S100000x128 .f32)
    (r : FVec Ideal S100000x1 .f32) : FVec Ideal S100000x128 .f32 :=
  mulf (F := Ideal) (agg d s X) (broadcastInDim S100000x128 ![0, 1] bcast_S100000x1_S100000x128_0_1 r)

/-! ## The stretches read -/

set_option maxHeartbeats 1000000 in
/-- The first stretch: the source row. -/
theorem read0_v1 (W : Valuation τ sig (Elt Ideal)) :
    StableHlo.after hostOps0 W (Proc.devRef .tc main_v1) = src (W (Proc.devRef .tc main_arg1)) := by
  simp only [hostOps0]
  after_results_simp
  rfl
set_option maxHeartbeats 1000000 in
/-- The first stretch: the destination row. -/
theorem read0_v3 (W : Valuation τ sig (Elt Ideal)) :
    StableHlo.after hostOps0 W (Proc.devRef .tc main_v3) = dst (W (Proc.devRef .tc main_arg1)) := by
  simp only [hostOps0]
  after_results_simp
  rfl
set_option maxHeartbeats 1000000 in
/-- The first stretch: the degrees. -/
theorem read0_v7 (W : Valuation τ sig (Elt Ideal)) :
    StableHlo.after hostOps0 W (Proc.devRef .tc main_v7) = deg (dst (W (Proc.devRef .tc main_arg1))) := by
  simp only [hostOps0]
  after_results_simp
  rfl
set_option maxHeartbeats 1000000 in
/-- The first stretch: the scalar one the clip call is handed. -/
theorem read0_cst1 (W : Valuation τ sig (Elt Ideal)) :
    StableHlo.after hostOps0 W (Proc.devRef .tc main_cst_1) = constant (F := Ideal) S_ .f32 0x3F800000#32 := by
  simp only [hostOps0]
  after_results_simp

set_option maxHeartbeats 1000000 in
/-- The clip call: the degrees clipped at the scalar it is handed. -/
theorem read0_1 (W : Valuation τ sig (Elt Ideal)) :
    StableHlo.after hostOps0_1 W (Proc.devRef .tc main_v8)
      = clipBy (W (Proc.devRef .tc main_cst_1)) (W (Proc.devRef .tc main_v7)) := by
  simp only [hostOps0_1]
  after_results_simp
  unfold clipBy
  simp only [TRef.toBuf, TRef.ofBuf, cast_eq]

set_option maxHeartbeats 1000000 in
/-- The stretch before the first region: the reciprocal column. -/
theorem read0_2_v11 (W : Valuation τ sig (Elt Ideal)) :
    StableHlo.after hostOps0_2 W (Proc.devRef .tc main_v11) = invcol (W (Proc.devRef .tc main_v8)) := by
  simp only [hostOps0_2]
  after_results_simp
  rfl
set_option maxHeartbeats 1000000 in
/-- The stretch before the first region: the neighbour means of the input features. -/
theorem read0_2_v23 (W : Valuation τ sig (Elt Ideal)) :
    StableHlo.after hostOps0_2 W (Proc.devRef .tc main_v23)
      = mean (W (Proc.devRef .tc main_v3)) (W (Proc.devRef .tc main_v1)) (W (Proc.devRef .tc main_arg0))
          (invcol (W (Proc.devRef .tc main_v8))) := by
  simp only [hostOps0_2]
  after_results_simp
  rfl

set_option maxHeartbeats 1000000 in
/-- The stretch before the second region: the neighbour means of the first layer's output. -/
theorem read1 (W : Valuation τ sig (Elt Ideal)) :
    StableHlo.after hostOps1 W (Proc.devRef .tc main_v36)
      = mean (W (Proc.devRef .tc main_v3)) (W (Proc.devRef .tc main_v1)) (W (Proc.devRef .tc main_v24))
          (W (Proc.devRef .tc main_v11)) := by
  simp only [hostOps1]
  after_results_simp
  rfl

set_option maxHeartbeats 1000000 in
/-- The stretch before the third region: the neighbour means of the second layer's output. -/
theorem read2 (W : Valuation τ sig (Elt Ideal)) :
    StableHlo.after hostOps2 W (Proc.devRef .tc main_v49)
      = mean (W (Proc.devRef .tc main_v3)) (W (Proc.devRef .tc main_v1)) (W (Proc.devRef .tc main_v37))
          (W (Proc.devRef .tc main_v11)) := by
  simp only [hostOps2]
  after_results_simp
  rfl

/-! ## What a stretch does not write it leaves as found -/

/-- No operation of the stretch writes the buffer: decided reference by reference. -/
macro "keep_ops" : tactic => `(tactic| (
  refine StableHlo.after_of_forall_not_mem _ _ (List.forall_iff_forall_mem.mp ?_)
  simp only [hostOps0, hostOps0_1, hostOps0_2, hostOps1, hostOps2, List.flatten_cons, List.flatten_nil, List.append_nil,
    List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

theorem keep0_arg0 (W : Valuation τ sig (Elt Ideal)) :
    StableHlo.after hostOps0 W (Proc.devRef .tc main_arg0) = W (Proc.devRef .tc main_arg0) := by keep_ops
theorem keep0_arg2 (W : Valuation τ sig (Elt Ideal)) :
    StableHlo.after hostOps0 W (Proc.devRef .tc main_arg2) = W (Proc.devRef .tc main_arg2) := by keep_ops
theorem keep0_arg3 (W : Valuation τ sig (Elt Ideal)) :
    StableHlo.after hostOps0 W (Proc.devRef .tc main_arg3) = W (Proc.devRef .tc main_arg3) := by keep_ops
theorem keep0_arg4 (W : Valuation τ sig (Elt Ideal)) :
    StableHlo.after hostOps0 W (Proc.devRef .tc main_arg4) = W (Proc.devRef .tc main_arg4) := by keep_ops
theorem keep0_arg5 (W : Valuation τ sig (Elt Ideal)) :
    StableHlo.after hostOps0 W (Proc.devRef .tc main_arg5) = W (Proc.devRef .tc main_arg5) := by keep_ops
theorem keep0_arg6 (W : Valuation τ sig (Elt Ideal)) :
    StableHlo.after hostOps0 W (Proc.devRef .tc main_arg6) = W (Proc.devRef .tc main_arg6) := by keep_ops
theorem keep0_arg7 (W : Valuation τ sig (Elt Ideal)) :
    StableHlo.after hostOps0 W (Proc.devRef .tc main_arg7) = W (Proc.devRef .tc main_arg7) := by keep_ops
theorem keep0_arg8 (W : Valuation τ sig (Elt Ideal)) :
    StableHlo.after hostOps0 W (Proc.devRef .tc main_arg8) = W (Proc.devRef .tc main_arg8) := by keep_ops
theorem keep0_arg9 (W : Valuation τ sig (Elt Ideal)) :
    StableHlo.after hostOps0 W (Proc.devRef .tc main_arg9) = W (Proc.devRef .tc main_arg9) := by keep_ops
theorem keep0_arg10 (W : Valuation τ sig (Elt Ideal)) :
    StableHlo.after hostOps0 W (Proc.devRef .tc main_arg10) = W (Proc.devRef .tc main_arg10) := by keep_ops
theorem keep1_v1 (W : Valuation τ sig (Elt Ideal)) :
    StableHlo.after hostOps1 W (Proc.devRef .tc main_v1) = W (Proc.devRef .tc main_v1) := by keep_ops
theorem keep1_v3 (W : Valuation τ sig (Elt Ideal)) :
    StableHlo.after hostOps1 W (Proc.devRef .tc main_v3) = W (Proc.devRef .tc main_v3) := by keep_ops
theorem keep1_v11 (W : Valuation τ sig (Elt Ideal)) :
    StableHlo.after hostOps1 W (Proc.devRef .tc main_v11) = W (Proc.devRef .tc main_v11) := by keep_ops
theorem keep1_v24 (W : Valuation τ sig (Elt Ideal)) :
    StableHlo.after hostOps1 W (Proc.devRef .tc main_v24) = W (Proc.devRef .tc main_v24) := by keep_ops
theorem keep1_arg5 (W : Valuation τ sig (Elt Ideal)) :
    StableHlo.after hostOps1 W (Proc.devRef .tc main_arg5) = W (Proc.devRef .tc main_arg5) := by keep_ops
theorem keep1_arg6 (W : Valuation τ sig (Elt Ideal)) :
    StableHlo.after hostOps1 W (Proc.devRef .tc main_arg6) = W (Proc.devRef .tc main_arg6) := by keep_ops
theorem keep1_arg7 (W : Valuation τ sig (Elt Ideal)) :
    StableHlo.after hostOps1 W (Proc.devRef .tc main_arg7) = W (Proc.devRef .tc main_arg7) := by keep_ops
theorem keep1_arg8 (W : Valuation τ sig (Elt Ideal)) :
    StableHlo.after hostOps1 W (Proc.devRef .tc main_arg8) = W (Proc.devRef .tc main_arg8) := by keep_ops
theorem keep1_arg9 (W : Valuation τ sig (Elt Ideal)) :
    StableHlo.after hostOps1 W (Proc.devRef .tc main_arg9) = W (Proc.devRef .tc main_arg9) := by keep_ops
theorem keep1_arg10 (W : Valuation τ sig (Elt Ideal)) :
    StableHlo.after hostOps1 W (Proc.devRef .tc main_arg10) = W (Proc.devRef .tc main_arg10) := by keep_ops
theorem keep2_v37 (W : Valuation τ sig (Elt Ideal)) :
    StableHlo.after hostOps2 W (Proc.devRef .tc main_v37) = W (Proc.devRef .tc main_v37) := by keep_ops
theorem keep2_arg8 (W : Valuation τ sig (Elt Ideal)) :
    StableHlo.after hostOps2 W (Proc.devRef .tc main_arg8) = W (Proc.devRef .tc main_arg8) := by keep_ops
theorem keep2_arg9 (W : Valuation τ sig (Elt Ideal)) :
    StableHlo.after hostOps2 W (Proc.devRef .tc main_arg9) = W (Proc.devRef .tc main_arg9) := by keep_ops
theorem keep2_arg10 (W : Valuation τ sig (Elt Ideal)) :
    StableHlo.after hostOps2 W (Proc.devRef .tc main_arg10) = W (Proc.devRef .tc main_arg10) := by keep_ops
theorem keep0_1_v1 (W : Valuation τ sig (Elt Ideal)) :
    StableHlo.after hostOps0_1 W (Proc.devRef .tc main_v1) = W (Proc.devRef .tc main_v1) := by keep_ops
theorem keep0_1_v3 (W : Valuation τ sig (Elt Ideal)) :
    StableHlo.after hostOps0_1 W (Proc.devRef .tc main_v3) = W (Proc.devRef .tc main_v3) := by keep_ops
theorem keep0_1_arg0 (W : Valuation τ sig (Elt Ideal)) :
    StableHlo.after hostOps0_1 W (Proc.devRef .tc main_arg0) = W (Proc.devRef .tc main_arg0) := by keep_ops
theorem keep0_1_arg2 (W : Valuation τ sig (Elt Ideal)) :
    StableHlo.after hostOps0_1 W (Proc.devRef .tc main_arg2) = W (Proc.devRef .tc main_arg2) := by keep_ops
theorem keep0_1_arg3 (W : Valuation τ sig (Elt Ideal)) :
    StableHlo.after hostOps0_1 W (Proc.devRef .tc main_arg3) = W (Proc.devRef .tc main_arg3) := by keep_ops
theorem keep0_1_arg4 (W : Valuation τ sig (Elt Ideal)) :
    StableHlo.after hostOps0_1 W (Proc.devRef .tc main_arg4) = W (Proc.devRef .tc main_arg4) := by keep_ops
theorem keep0_1_arg5 (W : Valuation τ sig (Elt Ideal)) :
    StableHlo.after hostOps0_1 W (Proc.devRef .tc main_arg5) = W (Proc.devRef .tc main_arg5) := by keep_ops
theorem keep0_1_arg6 (W : Valuation τ sig (Elt Ideal)) :
    StableHlo.after hostOps0_1 W (Proc.devRef .tc main_arg6) = W (Proc.devRef .tc main_arg6) := by keep_ops
theorem keep0_1_arg7 (W : Valuation τ sig (Elt Ideal)) :
    StableHlo.after hostOps0_1 W (Proc.devRef .tc main_arg7) = W (Proc.devRef .tc main_arg7) := by keep_ops
theorem keep0_1_arg8 (W : Valuation τ sig (Elt Ideal)) :
    StableHlo.after hostOps0_1 W (Proc.devRef .tc main_arg8) = W (Proc.devRef .tc main_arg8) := by keep_ops
theorem keep0_1_arg9 (W : Valuation τ sig (Elt Ideal)) :
    StableHlo.after hostOps0_1 W (Proc.devRef .tc main_arg9) = W (Proc.devRef .tc main_arg9) := by keep_ops
theorem keep0_1_arg10 (W : Valuation τ sig (Elt Ideal)) :
    StableHlo.after hostOps0_1 W (Proc.devRef .tc main_arg10) = W (Proc.devRef .tc main_arg10) := by keep_ops
theorem keep0_2_v1 (W : Valuation τ sig (Elt Ideal)) :
    StableHlo.after hostOps0_2 W (Proc.devRef .tc main_v1) = W (Proc.devRef .tc main_v1) := by keep_ops
theorem keep0_2_v3 (W : Valuation τ sig (Elt Ideal)) :
    StableHlo.after hostOps0_2 W (Proc.devRef .tc main_v3) = W (Proc.devRef .tc main_v3) := by keep_ops
theorem keep0_2_arg0 (W : Valuation τ sig (Elt Ideal)) :
    StableHlo.after hostOps0_2 W (Proc.devRef .tc main_arg0) = W (Proc.devRef .tc main_arg0) := by keep_ops
theorem keep0_2_arg2 (W : Valuation τ sig (Elt Ideal)) :
    StableHlo.after hostOps0_2 W (Proc.devRef .tc main_arg2) = W (Proc.devRef .tc main_arg2) := by keep_ops
theorem keep0_2_arg3 (W : Valuation τ sig (Elt Ideal)) :
    StableHlo.after hostOps0_2 W (Proc.devRef .tc main_arg3) = W (Proc.devRef .tc main_arg3) := by keep_ops
theorem keep0_2_arg4 (W : Valuation τ sig (Elt Ideal)) :
    StableHlo.after hostOps0_2 W (Proc.devRef .tc main_arg4) = W (Proc.devRef .tc main_arg4) := by keep_ops
theorem keep0_2_arg5 (W : Valuation τ sig (Elt Ideal)) :
    StableHlo.after hostOps0_2 W (Proc.devRef .tc main_arg5) = W (Proc.devRef .tc main_arg5) := by keep_ops
theorem keep0_2_arg6 (W : Valuation τ sig (Elt Ideal)) :
    StableHlo.after hostOps0_2 W (Proc.devRef .tc main_arg6) = W (Proc.devRef .tc main_arg6) := by keep_ops
theorem keep0_2_arg7 (W : Valuation τ sig (Elt Ideal)) :
    StableHlo.after hostOps0_2 W (Proc.devRef .tc main_arg7) = W (Proc.devRef .tc main_arg7) := by keep_ops
theorem keep0_2_arg8 (W : Valuation τ sig (Elt Ideal)) :
    StableHlo.after hostOps0_2 W (Proc.devRef .tc main_arg8) = W (Proc.devRef .tc main_arg8) := by keep_ops
theorem keep0_2_arg9 (W : Valuation τ sig (Elt Ideal)) :
    StableHlo.after hostOps0_2 W (Proc.devRef .tc main_arg9) = W (Proc.devRef .tc main_arg9) := by keep_ops
theorem keep0_2_arg10 (W : Valuation τ sig (Elt Ideal)) :
    StableHlo.after hostOps0_2 W (Proc.devRef .tc main_arg10) = W (Proc.devRef .tc main_arg10) := by keep_ops

end Cert.KernelIdeal.HostVal

end
-- ==== Proof.SageSpec.lean ====
/-
  One mean-aggregating graph layer, as whole-array functions over the extended reals.

  A layer takes the aggregated neighbour sums `A` (an `N × d` array), the in-degrees `dg` (length `N`), the node
  features `X` (`N × d`), two weight matrices `Wl`, `Wr` (`o × d`, contracted along their SECOND axis) and a bias `b`
  (length `o`).  The neighbour mean is the sum divided by the degree clipped below at one; one program multiplies
  by the reciprocal of the clipped degree, the other divides by it.  The clipped degree is at least one, hence not
  zero, and off zero the quotient `x / c` IS the product `x · c⁻¹`, so `x · (1 / c) = x · (1 · c⁻¹) = x / c` for every
  extended real `x`: no finiteness is needed.  The two programs also add the bias at different places,
  `(l + r) + b` against `(l + b) + r`: addition of extended reals is commutative and associative.
-/
import Idealize.ShloMosaic.Lib.ValueIdx
import Idealize.ShloMosaic.Lib.IdealHost
import Idealize.ShloMosaic.PureOps.Ideal.Laws

noncomputable section

open scoped BigOperators

namespace Cert.Sage

open Idealize.ShloMosaic Idealize.ShloMosaic.ValueIdx

/-- The f32 pattern of `1.0`, which both programs clip the degree with. -/
abbrev oneW : EReal := Ideal.ofBits .f32 0x3F800000#32
/-- The f32 pattern of `+0.0`, the floor of the activation. -/
abbrev zeroW : EReal := Ideal.ofBits .f32 0x00000000#32

/-- Off zero a quotient is the product with the reciprocal, and the degree clipped at one is not zero. -/
theorem mul_recip_clip (x d : EReal) : x * Ideal.div oneW (max oneW d) = Ideal.div x (max oneW d) := by
  have h1 : oneW = 1 := Ideal.ofBits_one_f32
  rw [h1]
  have h : max (1 : EReal) d ≠ 0 := (lt_of_lt_of_le zero_lt_one (le_max_left 1 d)).ne'
  rw [Ideal.div, Ideal.div, if_neg h, if_neg h, one_mul]

variable {N d o : Nat}

/-- The neighbour mean as the sum times the reciprocal of the clipped degree. -/
def meanMul (A : (⟨2, ![N, d]⟩ : Shape).Idx → EReal) (dg : (⟨1, ![N]⟩ : Shape).Idx → EReal) :
    (⟨2, ![N, d]⟩ : Shape).Idx → EReal :=
  fun j => A j * Ideal.div oneW (max oneW (dg (ix1 (j 0))))

/-- The neighbour mean as the sum divided by the clipped degree. -/
def meanDiv (A : (⟨2, ![N, d]⟩ : Shape).Idx → EReal) (dg : (⟨1, ![N]⟩ : Shape).Idx → EReal) :
    (⟨2, ![N, d]⟩ : Shape).Idx → EReal :=
  fun j => Ideal.div (A j) (max oneW (dg (ix1 (j 0))))

theorem meanMul_eq_meanDiv (A : (⟨2, ![N, d]⟩ : Shape).Idx → EReal) (dg : (⟨1, ![N]⟩ : Shape).Idx → EReal) :
    meanMul A dg = meanDiv A dg := funext fun j => mul_recip_clip _ _

/-- The layer's affine part, bias last: `(M · Wlᵀ + X · Wrᵀ) + b`. -/
def lin (M X : (⟨2, ![N, d]⟩ : Shape).Idx → EReal) (Wl : (⟨2, ![o, d]⟩ : Shape).Idx → EReal)
    (b : (⟨1, ![o]⟩ : Shape).Idx → EReal) (Wr : (⟨2, ![o, d]⟩ : Shape).Idx → EReal) :
    (⟨2, ![N, o]⟩ : Shape).Idx → EReal :=
  fun i => (∑ k : Fin d, M (ix2 (i 0) k) * Wl (ix2 (i 1) k) + ∑ k : Fin d, X (ix2 (i 0) k) * Wr (ix2 (i 1) k))
    + b (ix1 (i 1))

/-- The layer's affine part, bias in the middle: `(M · Wlᵀ + b) + X · Wrᵀ`. -/
def linMid (M X : (⟨2, ![N, d]⟩ : Shape).Idx → EReal) (Wl : (⟨2, ![o, d]⟩ : Shape).Idx → EReal)
    (b : (⟨1, ![o]⟩ : Shape).Idx → EReal) (Wr : (⟨2, ![o, d]⟩ : Shape).Idx → EReal) :
    (⟨2, ![N, o]⟩ : Shape).Idx → EReal :=
  fun i => (∑ k : Fin d, M (ix2 (i 0) k) * Wl (ix2 (i 1) k) + b (ix1 (i 1)))
    + ∑ k : Fin d, X (ix2 (i 0) k) * Wr (ix2 (i 1) k)

theorem linMid_eq_lin (M X : (⟨2, ![N, d]⟩ : Shape).Idx → EReal) (Wl : (⟨2, ![o, d]⟩ : Shape).Idx → EReal)
    (b : (⟨1, ![o]⟩ : Shape).Idx → EReal) (Wr : (⟨2, ![o, d]⟩ : Shape).Idx → EReal) :
    linMid M X Wl b Wr = lin M X Wl b Wr := funext fun i => add_right_comm _ _ _

/-- Rows of the affine part depend on the matching rows only: where blocks `M'`, `X'` hold row `j 0` as `M`, `X` hold row
    `i 0`, and the weights and bias agree at columns `j 1` and `i 1`, entry `j` of the one is entry `i` of the other. -/
theorem lin_block {n : Nat} (M X : (⟨2, ![N, d]⟩ : Shape).Idx → EReal) (Wl : (⟨2, ![o, d]⟩ : Shape).Idx → EReal)
    (b : (⟨1, ![o]⟩ : Shape).Idx → EReal) (Wr : (⟨2, ![o, d]⟩ : Shape).Idx → EReal)
    (M' X' : (⟨2, ![n, d]⟩ : Shape).Idx → EReal) (Wl' : (⟨2, ![o, d]⟩ : Shape).Idx → EReal)
    (b' : (⟨1, ![o]⟩ : Shape).Idx → EReal) (Wr' : (⟨2, ![o, d]⟩ : Shape).Idx → EReal)
    (i : (⟨2, ![N, o]⟩ : Shape).Idx) (j : (⟨2, ![n, o]⟩ : Shape).Idx)
    (hM : ∀ k : Fin d, M' (ix2 (j 0) k) = M (ix2 (i 0) k)) (hX : ∀ k : Fin d, X' (ix2 (j 0) k) = X (ix2 (i 0) k))
    (hWl : ∀ k : Fin d, Wl' (ix2 (j 1) k) = Wl (ix2 (i 1) k)) (hWr : ∀ k : Fin d, Wr' (ix2 (j 1) k) = Wr (ix2 (i 1) k))
    (hb : b' (ix1 (j 1)) = b (ix1 (i 1))) :
    lin M' X' Wl' b' Wr' j = lin M X Wl b Wr i := by
  unfold lin
  rw [hb]
  exact congrArg₂ (· + ·) (congrArg₂ (· + ·) (Finset.sum_congr rfl fun k _ => by rw [hM k, hWl k])
    (Finset.sum_congr rfl fun k _ => by rw [hX k, hWr k])) rfl

/-- The activation: the maximum with zero, entry by entry. -/
def relu {s : Shape} (x : s.Idx → EReal) : s.Idx → EReal := fun i => max (x i) zeroW

/-- One layer as the first program computes it. -/
def layerMul (A : (⟨2, ![N, d]⟩ : Shape).Idx → EReal) (dg : (⟨1, ![N]⟩ : Shape).Idx → EReal)
    (X : (⟨2, ![N, d]⟩ : Shape).Idx → EReal) (Wl : (⟨2, ![o, d]⟩ : Shape).Idx → EReal)
    (b : (⟨1, ![o]⟩ : Shape).Idx → EReal) (Wr : (⟨2, ![o, d]⟩ : Shape).Idx → EReal) :
    (⟨2, ![N, o]⟩ : Shape).Idx → EReal := lin (meanMul A dg) X Wl b Wr

/-- One layer as the second program computes it. -/
def layerDiv (A : (⟨2, ![N, d]⟩ : Shape).Idx → EReal) (dg : (⟨1, ![N]⟩ : Shape).Idx → EReal)
    (X : (⟨2, ![N, d]⟩ : Shape).Idx → EReal) (Wl : (⟨2, ![o, d]⟩ : Shape).Idx → EReal)
    (b : (⟨1, ![o]⟩ : Shape).Idx → EReal) (Wr : (⟨2, ![o, d]⟩ : Shape).Idx → EReal) :
    (⟨2, ![N, o]⟩ : Shape).Idx → EReal := linMid (meanDiv A dg) X Wl b Wr

/-- The two are one function. -/
theorem layerDiv_eq_layerMul (A : (⟨2, ![N, d]⟩ : Shape).Idx → EReal) (dg : (⟨1, ![N]⟩ : Shape).Idx → EReal)
    (X : (⟨2, ![N, d]⟩ : Shape).Idx → EReal) (Wl : (⟨2, ![o, d]⟩ : Shape).Idx → EReal)
    (b : (⟨1, ![o]⟩ : Shape).Idx → EReal) (Wr : (⟨2, ![o, d]⟩ : Shape).Idx → EReal) :
    layerDiv A dg X Wl b Wr = layerMul A dg X Wl b Wr := by
  unfold layerDiv layerMul
  rw [linMid_eq_lin, meanMul_eq_meanDiv]

end Cert.Sage

end
-- ==== Proof.LibDotNT.lean ====
/-
  A matrix product against a transposed right operand, read at an index.

  For dimension numbers `D` of a product of an `M × K` operand with an `N × K` operand into `M × N` that contract
  ONE axis — the left operand's second against the right operand's SECOND, no batch axis (`x · wᵀ`, the form a linear
  layer with row-major weights takes) — the sum over `D`'s contraction index that the ideal instance gives for a
  `tpu.matmul` into a zero accumulator is the textbook one: entry `(r, c)` is the sum over `k : Fin K` of the left
  operand at `(r, k)` times the right operand at `(c, k)`.  What makes a given `D` of this form is stated as four
  facts about the coordinates of its operand indices, which a concrete record proves by unfolding its lists of axes.
-/
import Idealize.ShloMosaic.Lib.ValueIdx
import Idealize.ShloMosaic.PureOps.Ideal.Laws

noncomputable section

open scoped BigOperators

namespace Cert.Lib.DotNT

open Idealize.ShloMosaic Idealize.ShloMosaic.ValueIdx

/-- The contraction sum of a product against a transposed right operand, re-indexed by the contracted axis'
    coordinate: at the output index `j` the left operand is read along row `j 0` and the right operand along ROW `j 1`. -/
theorem sum_nt {M K N : Nat}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (l : (⟨2, ![M, K]⟩ : Shape).Idx → EReal) (r : (⟨2, ![N, K]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 (j 1) k := funext fun a => Fin.ext (by
    match a with
    | ⟨0, _⟩ => exact r0 _ _
    | ⟨1, _⟩ => exact (r1 _ _).trans hk)
  exact congrArg₂ (fun a b : EReal => a * b) (congrArg l el) (congrArg r er)

/-- A `tpu.matmul` of that form into the zero accumulator, at the ideal instance, is that sum. -/
theorem matmul_zero_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 (j 1) k) := by
  rw [Ideal.matmul_constant_zero_apply]
  exact sum_nt D hr hs l0 l1 r0 r1 l r j

end Cert.Lib.DotNT

end
-- ==== Proof.Body.lean ====
/-
  What one grid point of each of the three combine kernels stores, entry by entry.

  A kernel body loads a `5000 × 128` block of neighbour means `x0`, the matching block of node features `x1`, the
  whole weight matrices `x2`, `x4` (`o × 128`) and the bias `x3`, and stores
  `(x0 · x2ᵀ + x1 · x4ᵀ) + x3` (the first two kernels: its maximum with zero).  The casts to bf16 are the identity on
  extended reals, each product into the zero accumulator is the plain sum over the 128 contracted coordinates, and
  the bias, reshaped to one row and repeated down the rows, is read at the column.  So the stored block is the
  layer's affine part `Sage.lin` of the loaded blocks (under `Sage.relu` for the first two kernels).
-/
import proofs.«164896_j82386062671991_1_alg».proof.Proof.Gen.KernelIdeal.Skeleton
import proofs.«164896_j82386062671991_1_alg».proof.Proof.SageSpec
import proofs.«164896_j82386062671991_1_alg».proof.Proof.LibDotNT
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Idealize.ShloMosaic.Pipeline

/-! ## The two contraction records: left axis 1 against right axis 1 -/

theorem dA_l0 (j : S5000x128.Idx) (q : dot_S5000x128_S128x128_S5000x128_1_1_0_0_n_n.contr.Idx) :
    (dot_S5000x128_S128x128_S5000x128_1_1_0_0_n_n.lhsIdx j q 0).val = (j 0).val := by
  unfold DotDims.lhsIdx
  rw [dif_neg (show ¬(0 : Fin S5000x128.rank) ∈ dot_S5000x128_S128x128_S5000x128_1_1_0_0_n_n.lhsBatch by decide),
    dif_pos (show (0 : Fin S5000x128.rank) ∈ dot_S5000x128_S128x128_S5000x128_1_1_0_0_n_n.lhsNonContracting by decide)]
  rfl
theorem dA_l1 (j : S5000x128.Idx) (q : dot_S5000x128_S128x128_S5000x128_1_1_0_0_n_n.contr.Idx) :
    (dot_S5000x128_S128x128_S5000x128_1_1_0_0_n_n.lhsIdx j q 1).val = (q ⟨0, by decide⟩).val :=
  dot_S5000x128_S128x128_S5000x128_1_1_0_0_n_n.lhsIdx_val_of_single rfl j q
theorem dA_r0 (j : S5000x128.Idx) (q : dot_S5000x128_S128x128_S5000x128_1_1_0_0_n_n.contr.Idx) :
    (dot_S5000x128_S128x128_S5000x128_1_1_0_0_n_n.rhsIdx j q 0).val = (j 1).val := by
  unfold DotDims.rhsIdx
  rw [dif_neg (show ¬(0 : Fin S128x128.rank) ∈ dot_S5000x128_S128x128_S5000x128_1_1_0_0_n_n.rhsBatch by decide),
    dif_pos (show (0 : Fin S128x128.rank) ∈ dot_S5000x128_S128x128_S5000x128_1_1_0_0_n_n.rhsNonContracting by decide)]
  rfl
theorem dA_r1 (j : S5000x128.Idx) (q : dot_S5000x128_S128x128_S5000x128_1_1_0_0_n_n.contr.Idx) :
    (dot_S5000x128_S128x128_S5000x128_1_1_0_0_n_n.rhsIdx j q 1).val = (q ⟨0, by decide⟩).val :=
  dot_S5000x128_S128x128_S5000x128_1_1_0_0_n_n.rhsIdx_val_of_single rfl j q

/-- A block times the transposed `128 × 128` weights, at an entry. -/
theorem mmA_apply (l : FVec Ideal S5000x128 .bf16) (r : FVec Ideal S128x128 .bf16) (j : S5000x128.Idx) :
    matmul dot_S5000x128_S128x128_S5000x128_1_1_0_0_n_n none l r (constant S5000x128 .f32 0x00000000#32) j
      = ∑ k : Fin 128, l (ix2 (j 0) k) * r (ix2 (j 1) k) :=
  Cert.Lib.DotNT.matmul_zero_apply (M := 5000) (K := 128) (N := 128) dot_S5000x128_S128x128_S5000x128_1_1_0_0_n_n rfl rfl
    dA_l0 dA_l1 dA_r0 dA_r1 none l r j

/-- The bias as one row repeated down the block, at an entry: the bias at the entry's column. -/
theorem biasA_apply (x3 : FVec Ideal S128 .f32) (j : S5000x128.Idx) :
    broadcastTo S5000x128 (shapeCast S1x128 x3 shapeCasts_S128_S1x128) broadcasts_S1x128_S5000x128 j = x3 (ix1 (j 1)) := by
  refine (broadcastTo_apply _ broadcasts_S1x128_S5000x128 j (ix2 (0 : Fin 1) (j 1)) (fun a => ?_)).trans ?_
  · match a with
    | ⟨0, _⟩ => show (0 : Nat) = if (1 : Nat) = 1 then 0 else _; rw [if_pos rfl]
    | ⟨1, _⟩ => show (j 1).val = if (128 : Nat) = 1 then 0 else (j 1).val; rw [if_neg (by decide)]
  · refine (shapeCast_addUnit_apply ![128] x3 shapeCasts_S128_S1x128 (ix2 (0 : Fin 1) (j 1))).trans ?_
    exact congrArg x3 (funext fun a => by match a with | ⟨0, _⟩ => rfl)

/-- THE FIRST KERNEL's stored block. -/
theorem pay0_apply (x0 x1 : FVec Ideal S5000x128 .f32) (x2 x4 : FVec Ideal S128x128 .f32) (x3 : FVec Ideal S128 .f32)
    (j : S5000x128.Idx) :
    k0_pay1 (F := Ideal) x0 x1 x2 x4 x3 j
      = Cert.Sage.relu (Cert.Sage.lin (N := 5000) (d := 128) (o := 128) x0 x1 x2 x3 x4) j := by
  unfold k0_pay1 Cert.Sage.relu Cert.Sage.lin
  rw [shapeCast_self]
  refine congrArg₂ max (congrArg₂ (· + ·) (congrArg₂ (· + ·) ?_ ?_) ?_) rfl
  · exact mmA_apply _ _ j
  · exact mmA_apply _ _ j
  · exact biasA_apply x3 j

/-- THE SECOND KERNEL's stored block: the same function. -/
theorem pay1_apply (x0 x1 : FVec Ideal S5000x128 .f32) (x2 x4 : FVec Ideal S128x128 .f32) (x3 : FVec Ideal S128 .f32)
    (j : S5000x128.Idx) :
    k1_pay1 (F := Ideal) x0 x1 x2 x4 x3 j
      = Cert.Sage.relu (Cert.Sage.lin (N := 5000) (d := 128) (o := 128) x0 x1 x2 x3 x4) j := by
  unfold k1_pay1 Cert.Sage.relu Cert.Sage.lin
  rw [shapeCast_self, shapeCast_self]
  refine congrArg₂ max (congrArg₂ (· + ·) (congrArg₂ (· + ·) ?_ ?_) ?_) rfl
  · exact mmA_apply _ _ j
  · exact mmA_apply _ _ j
  · exact biasA_apply x3 j

/-! ## The last kernel: two output columns, no activation -/

theorem dB_l0 (j : S5000x2.Idx) (q : dot_S5000x128_S2x128_S5000x2_1_1_0_0_n_n.contr.Idx) :
    (dot_S5000x128_S2x128_S5000x2_1_1_0_0_n_n.lhsIdx j q 0).val = (j 0).val := by
  unfold DotDims.lhsIdx
  rw [dif_neg (show ¬(0 : Fin S5000x128.rank) ∈ dot_S5000x128_S2x128_S5000x2_1_1_0_0_n_n.lhsBatch by decide),
    dif_pos (show (0 : Fin S5000x128.rank) ∈ dot_S5000x128_S2x128_S5000x2_1_1_0_0_n_n.lhsNonContracting by decide)]
  rfl
theorem dB_l1 (j : S5000x2.Idx) (q : dot_S5000x128_S2x128_S5000x2_1_1_0_0_n_n.contr.Idx) :
    (dot_S5000x128_S2x128_S5000x2_1_1_0_0_n_n.lhsIdx j q 1).val = (q ⟨0, by decide⟩).val :=
  dot_S5000x128_S2x128_S5000x2_1_1_0_0_n_n.lhsIdx_val_of_single rfl j q
theorem dB_r0 (j : S5000x2.Idx) (q : dot_S5000x128_S2x128_S5000x2_1_1_0_0_n_n.contr.Idx) :
    (dot_S5000x128_S2x128_S5000x2_1_1_0_0_n_n.rhsIdx j q 0).val = (j 1).val := by
  unfold DotDims.rhsIdx
  rw [dif_neg (show ¬(0 : Fin S2x128.rank) ∈ dot_S5000x128_S2x128_S5000x2_1_1_0_0_n_n.rhsBatch by decide),
    dif_pos (show (0 : Fin S2x128.rank) ∈ dot_S5000x128_S2x128_S5000x2_1_1_0_0_n_n.rhsNonContracting by decide)]
  rfl
theorem dB_r1 (j : S5000x2.Idx) (q : dot_S5000x128_S2x128_S5000x2_1_1_0_0_n_n.contr.Idx) :
    (dot_S5000x128_S2x128_S5000x2_1_1_0_0_n_n.rhsIdx j q 1).val = (q ⟨0, by decide⟩).val :=
  dot_S5000x128_S2x128_S5000x2_1_1_0_0_n_n.rhsIdx_val_of_single rfl j q

/-- A block times the transposed `2 × 128` weights, at an entry. -/
theorem mmB_apply (l : FVec Ideal S5000x128 .bf16) (r : FVec Ideal S2x128 .bf16) (j : S5000x2.Idx) :
    matmul dot_S5000x128_S2x128_S5000x2_1_1_0_0_n_n none l r (constant S5000x2 .f32 0x00000000#32) j
      = ∑ k : Fin 128, l (ix2 (j 0) k) * r (ix2 (j 1) k) :=
  Cert.Lib.DotNT.matmul_zero_apply (M := 5000) (K := 128) (N := 2) dot_S5000x128_S2x128_S5000x2_1_1_0_0_n_n rfl rfl
    dB_l0 dB_l1 dB_r0 dB_r1 none l r j

/-- The two-entry bias as one row repeated down the block, at an entry. -/
theorem biasB_apply (x3 : FVec Ideal S2 .f32) (j : S5000x2.Idx) :
    broadcastTo S5000x2 (shapeCast S1x2 x3 shapeCasts_S2_S1x2) broadcasts_S1x2_S5000x2 j = x3 (ix1 (j 1)) := by
  refine (broadcastTo_apply _ broadcasts_S1x2_S5000x2 j (ix2 (0 : Fin 1) (j 1)) (fun a => ?_)).trans ?_
  · match a with
    | ⟨0, _⟩ => show (0 : Nat) = if (1 : Nat) = 1 then 0 else _; rw [if_pos rfl]
    | ⟨1, _⟩ => show (j 1).val = if (2 : Nat) = 1 then 0 else (j 1).val; rw [if_neg (by decide)]
  · refine (shapeCast_addUnit_apply ![2] x3 shapeCasts_S2_S1x2 (ix2 (0 : Fin 1) (j 1))).trans ?_
    exact congrArg x3 (funext fun a => by match a with | ⟨0, _⟩ => rfl)

/-- THE LAST KERNEL's stored block. -/
theorem pay2_apply (x0 x1 : FVec Ideal S5000x128 .f32) (x2 x4 : FVec Ideal S2x128 .f32) (x3 : FVec Ideal S2 .f32)
    (j : S5000x2.Idx) :
    k2_pay1 (F := Ideal) x0 x1 x2 x4 x3 j = Cert.Sage.lin (N := 5000) (d := 128) (o := 2) x0 x1 x2 x3 x4 j := by
  unfold k2_pay1 Cert.Sage.lin
  rw [shapeCast_self, shapeCast_self]
  refine congrArg₂ (· + ·) (congrArg₂ (· + ·) ?_ ?_) ?_
  · exact mmB_apply _ _ j
  · exact mmB_apply _ _ j
  · exact biasB_apply x3 j

end Cert.KernelIdeal.Body

end
-- ==== Proof.Region0.lean ====
/-
  The array region 0 of the program leaves in its output, as ONE function of the arrays it finds on entry.

  The grid has twenty points; point `t` loads rows `5000·t … 5000·t + 4999` of the neighbour-mean array and of the
  feature array, the whole weight matrices and the bias, and writes rows `5000·t … 5000·t + 4999` of the output.  A
  row of the layer depends on the same row of its two inputs only, so what point `t` writes back is block `t` of the
  layer applied to the WHOLE arrays; the twenty blocks tile the output (row `r` is in block `r / 5000`), so the output
  array ends holding the layer of the entry arrays.  Stated for ANY entry contents `V`.
-/
import proofs.«164896_j82386062671991_1_alg».proof.Proof.Gen.KernelIdeal.Frame
import proofs.«164896_j82386062671991_1_alg».proof.Proof.Body
import proofs.«164896_j82386062671991_1_alg».proof.Proof.SageSpec
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The layer of the arrays the region finds on entry. -/
abbrev G (c : Dev nD) : S100000x128.Idx → EReal :=
  Cert.Sage.relu (Cert.Sage.lin (N := 100000) (d := 128) (o := 128) (V c main_v23) (V c main_arg0) (V c main_arg2) (V c main_arg3) (V c main_arg4))

/-- The printed index maps, decided over the grid: the two row-blocked inputs move with the output's row block, the
    weights and the bias stay at block zero, and the output's row block is one of the twenty. -/
theorem idx_facts : ∀ t : Fin cfg0.N, win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (1 : Fin 2) = 0 ∧ win0_5.index t (0 : Fin 2) ≤ 19 :=
  (by decide +kernel : ∀ t : Fin grid0.N, _)

/-- Every row block is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- WHAT POINT `t` WRITES BACK is block `t` of the layer of the entry arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S128) hz1]
  obtain ⟨e0, e1, e2, e3, e4, e5, e6, e7, e8, e9, e10⟩ := idx_facts t
  funext j
  refine (Body.pay0_apply _ _ _ _ _ j).trans ?_
  refine congrArg (fun x : EReal => max x Cert.Sage.zeroW) ?_
  refine Cert.Sage.lin_block (N := 100000) (d := 128) (o := 128) (n := 5000) (V c main_v23) (V c main_arg0) (V c main_arg2) (V c main_arg3) (V c main_arg4)
    _ _ _ _ _ (((cfg0.win 5).blk t).view.emb j) j (fun k => ?_) (fun k => ?_) (fun k => ?_) (fun k => ?_) ?_
  · show V c main_v23 (((cfg0.win 0).blk t).view.emb (ix2 (j 0) k)) = V c main_v23 (ix2 ((((cfg0.win 5).blk t).view.emb j) 0) k)
    refine congrArg (V c main_v23) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · show V c main_arg0 (((cfg0.win 1).blk t).view.emb (ix2 (j 0) k)) = V c main_arg0 (ix2 ((((cfg0.win 5).blk t).view.emb j) 0) k)
    refine congrArg (V c main_arg0) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · show V c main_arg2 (((cfg0.win 2).blk t).view.emb (ix2 (j 1) k)) = V c main_arg2 (ix2 ((((cfg0.win 5).blk t).view.emb j) 1) k)
    refine congrArg (V c main_arg2) (funext fun a => Fin.ext ?_)
    match a with
    | ⟨0, _⟩ => show win0_2.index t (0 : Fin 2) * 128 + 1 * (j 1).val = win0_5.index t (1 : Fin 2) * 128 + 1 * (j 1).val; omega
    | ⟨1, _⟩ => show win0_2.index t (1 : Fin 2) * 128 + 1 * k.val = k.val; omega
  · show V c main_arg4 (((cfg0.win 4).blk t).view.emb (ix2 (j 1) k)) = V c main_arg4 (ix2 ((((cfg0.win 5).blk t).view.emb j) 1) k)
    refine congrArg (V c main_arg4) (funext fun a => Fin.ext ?_)
    match a with
    | ⟨0, _⟩ => show win0_4.index t (0 : Fin 2) * 128 + 1 * (j 1).val = win0_5.index t (1 : Fin 2) * 128 + 1 * (j 1).val; omega
    | ⟨1, _⟩ => show win0_4.index t (1 : Fin 2) * 128 + 1 * k.val = k.val; omega
  · show V c main_arg3 (((cfg0.win 3).blk t).view.emb (ix1 (j 1))) = V c main_arg3 (ix1 ((((cfg0.win 5).blk t).view.emb j) 1))
    refine congrArg (V c main_arg3) (funext fun a => Fin.ext ?_)
    match a with
    | ⟨0, _⟩ => show win0_3.index t (0 : Fin 1) * 128 + 1 * (j 1).val = win0_5.index t (1 : Fin 2) * 128 + 1 * (j 1).val; omega

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- The twenty row blocks tile the output: row `r` lies in block `r / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the region: the layer of the arrays found on entry. -/
theorem arr (c : Dev nD) : (dat0 V c).arrAt 5 cfg0.N = G V c :=
  (dat0 V c).arrAt_eq_of_cover 5 (G V c) (fun t _ => flushed_eq V c t) cover

end Cert.KernelIdeal.Region0

end
-- ==== Proof.Region1.lean ====
/-
  The array region 1 of the program leaves in its output, as ONE function of the arrays it finds on entry.

  The grid has twenty points; point `t` loads rows `5000·t … 5000·t + 4999` of the neighbour-mean array and of the
  feature array, the whole weight matrices and the bias, and writes rows `5000·t … 5000·t + 4999` of the output.  A
  row of the layer depends on the same row of its two inputs only, so what point `t` writes back is block `t` of the
  layer applied to the WHOLE arrays; the twenty blocks tile the output (row `r` is in block `r / 5000`), so the output
  array ends holding the layer of the entry arrays.  Stated for ANY entry contents `V`.
-/
import proofs.«164896_j82386062671991_1_alg».proof.Proof.Gen.KernelIdeal.Frame
import proofs.«164896_j82386062671991_1_alg».proof.Proof.Body
import proofs.«164896_j82386062671991_1_alg».proof.Proof.SageSpec
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The layer of the arrays the region finds on entry. -/
abbrev G (c : Dev nD) : S100000x128.Idx → EReal :=
  Cert.Sage.relu (Cert.Sage.lin (N := 100000) (d := 128) (o := 128) (V c main_v36) (V c main_v24) (V c main_arg5) (V c main_arg6) (V c main_arg7))

/-- The printed index maps, decided over the grid: the two row-blocked inputs move with the output's row block, the
    weights and the bias stay at block zero, and the output's row block is one of the twenty. -/
theorem idx_facts : ∀ t : Fin cfg1.N, win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

/-- Every row block is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- WHAT POINT `t` WRITES BACK is block `t` of the layer of the entry arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S128) hz1]
  obtain ⟨e0, e1, e2, e3, e4, e5, e6, e7, e8, e9, e10⟩ := idx_facts t
  funext j
  refine (Body.pay1_apply _ _ _ _ _ j).trans ?_
  refine congrArg (fun x : EReal => max x Cert.Sage.zeroW) ?_
  refine Cert.Sage.lin_block (N := 100000) (d := 128) (o := 128) (n := 5000) (V c main_v36) (V c main_v24) (V c main_arg5) (V c main_arg6) (V c main_arg7)
    _ _ _ _ _ (((cfg1.win 5).blk t).view.emb j) j (fun k => ?_) (fun k => ?_) (fun k => ?_) (fun k => ?_) ?_
  · show V c main_v36 (((cfg1.win 0).blk t).view.emb (ix2 (j 0) k)) = V c main_v36 (ix2 ((((cfg1.win 5).blk t).view.emb j) 0) k)
    refine congrArg (V c main_v36) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · show V c main_v24 (((cfg1.win 1).blk t).view.emb (ix2 (j 0) k)) = V c main_v24 (ix2 ((((cfg1.win 5).blk t).view.emb j) 0) k)
    refine congrArg (V c main_v24) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · show V c main_arg5 (((cfg1.win 2).blk t).view.emb (ix2 (j 1) k)) = V c main_arg5 (ix2 ((((cfg1.win 5).blk t).view.emb j) 1) k)
    refine congrArg (V c main_arg5) (funext fun a => Fin.ext ?_)
    match a with
    | ⟨0, _⟩ => show win1_2.index t (0 : Fin 2) * 128 + 1 * (j 1).val = win1_5.index t (1 : Fin 2) * 128 + 1 * (j 1).val; omega
    | ⟨1, _⟩ => show win1_2.index t (1 : Fin 2) * 128 + 1 * k.val = k.val; omega
  · show V c main_arg7 (((cfg1.win 4).blk t).view.emb (ix2 (j 1) k)) = V c main_arg7 (ix2 ((((cfg1.win 5).blk t).view.emb j) 1) k)
    refine congrArg (V c main_arg7) (funext fun a => Fin.ext ?_)
    match a with
    | ⟨0, _⟩ => show win1_4.index t (0 : Fin 2) * 128 + 1 * (j 1).val = win1_5.index t (1 : Fin 2) * 128 + 1 * (j 1).val; omega
    | ⟨1, _⟩ => show win1_4.index t (1 : Fin 2) * 128 + 1 * k.val = k.val; omega
  · show V c main_arg6 (((cfg1.win 3).blk t).view.emb (ix1 (j 1))) = V c main_arg6 (ix1 ((((cfg1.win 5).blk t).view.emb j) 1))
    refine congrArg (V c main_arg6) (funext fun a => Fin.ext ?_)
    match a with
    | ⟨0, _⟩ => show win1_3.index t (0 : Fin 1) * 128 + 1 * (j 1).val = win1_5.index t (1 : Fin 2) * 128 + 1 * (j 1).val; omega

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v37).slice (win1_5.rect t)).set ↔ _
  rw [View.set_slice_whole, Rect.mem_set_unit]
  exact Iff.rfl

/-- The twenty row blocks tile the output: row `r` lies in block `r / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the region: the layer of the arrays found on entry. -/
theorem arr (c : Dev nD) : (dat1 V c).arrAt 5 cfg1.N = G V c :=
  (dat1 V c).arrAt_eq_of_cover 5 (G V c) (fun t _ => flushed_eq V c t) cover

end Cert.KernelIdeal.Region1

end
-- ==== Proof.Region2.lean ====
/-
  The array region 2 of the program leaves in its output, as ONE function of the arrays it finds on entry.

  The grid has twenty points; point `t` loads rows `5000·t … 5000·t + 4999` of the neighbour-mean array and of the
  feature array, the whole weight matrices and the bias, and writes rows `5000·t … 5000·t + 4999` of the output.  A
  row of the layer depends on the same row of its two inputs only, so what point `t` writes back is block `t` of the
  layer applied to the WHOLE arrays; the twenty blocks tile the output (row `r` is in block `r / 5000`), so the output
  array ends holding the layer of the entry arrays.  Stated for ANY entry contents `V`.
-/
import proofs.«164896_j82386062671991_1_alg».proof.Proof.Gen.KernelIdeal.Frame
import proofs.«164896_j82386062671991_1_alg».proof.Proof.Body
import proofs.«164896_j82386062671991_1_alg».proof.Proof.SageSpec
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The layer of the arrays the region finds on entry. -/
abbrev G (c : Dev nD) : S100000x2.Idx → EReal :=
  Cert.Sage.lin (N := 100000) (d := 128) (o := 2) (V c main_v49) (V c main_v37) (V c main_arg8) (V c main_arg9) (V c main_arg10)

/-- The printed index maps, decided over the grid: the two row-blocked inputs move with the output's row block, the
    weights and the bias stay at block zero, and the output's row block is one of the twenty. -/
theorem idx_facts : ∀ t : Fin cfg2.N, win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (1 : Fin 2) = 0 ∧ win2_5.index t (0 : Fin 2) ≤ 19 :=
  (by decide +kernel : ∀ t : Fin grid2.N, _)

/-- Every row block is some point's. -/
theorem idx_onto : ∀ q0 : Fin 20, ∃ t : Fin cfg2.N, win2_5.index t = ![q0.val, 0] :=
  (by decide +kernel : ∀ q0 : Fin 20, ∃ t : Fin grid2.N, win2_5.index t = ![q0.val, 0])

/-- WHAT POINT `t` WRITES BACK is block `t` of the layer of the entry arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S2x128) hz, View.ld_unit_zero (S := S2) hz1]
  obtain ⟨e0, e1, e2, e3, e4, e5, e6, e7, e8, e9, e10⟩ := idx_facts t
  funext j
  refine (Body.pay2_apply _ _ _ _ _ j).trans ?_

  refine Cert.Sage.lin_block (N := 100000) (d := 128) (o := 2) (n := 5000) (V c main_v49) (V c main_v37) (V c main_arg8) (V c main_arg9) (V c main_arg10)
    _ _ _ _ _ (((cfg2.win 5).blk t).view.emb j) j (fun k => ?_) (fun k => ?_) (fun k => ?_) (fun k => ?_) ?_
  · show V c main_v49 (((cfg2.win 0).blk t).view.emb (ix2 (j 0) k)) = V c main_v49 (ix2 ((((cfg2.win 5).blk t).view.emb j) 0) k)
    refine congrArg (V c main_v49) (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * k.val = k.val; omega
  · show V c main_v37 (((cfg2.win 1).blk t).view.emb (ix2 (j 0) k)) = V c main_v37 (ix2 ((((cfg2.win 5).blk t).view.emb j) 0) k)
    refine congrArg (V c main_v37) (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 128 + 1 * k.val = k.val; omega
  · show V c main_arg8 (((cfg2.win 2).blk t).view.emb (ix2 (j 1) k)) = V c main_arg8 (ix2 ((((cfg2.win 5).blk t).view.emb j) 1) k)
    refine congrArg (V c main_arg8) (funext fun a => Fin.ext ?_)
    match a with
    | ⟨0, _⟩ => show win2_2.index t (0 : Fin 2) * 2 + 1 * (j 1).val = win2_5.index t (1 : Fin 2) * 2 + 1 * (j 1).val; omega
    | ⟨1, _⟩ => show win2_2.index t (1 : Fin 2) * 128 + 1 * k.val = k.val; omega
  · show V c main_arg10 (((cfg2.win 4).blk t).view.emb (ix2 (j 1) k)) = V c main_arg10 (ix2 ((((cfg2.win 5).blk t).view.emb j) 1) k)
    refine congrArg (V c main_arg10) (funext fun a => Fin.ext ?_)
    match a with
    | ⟨0, _⟩ => show win2_4.index t (0 : Fin 2) * 2 + 1 * (j 1).val = win2_5.index t (1 : Fin 2) * 2 + 1 * (j 1).val; omega
    | ⟨1, _⟩ => show win2_4.index t (1 : Fin 2) * 128 + 1 * k.val = k.val; omega
  · show V c main_arg9 (((cfg2.win 3).blk t).view.emb (ix1 (j 1))) = V c main_arg9 (ix1 ((((cfg2.win 5).blk t).view.emb j) 1))
    refine congrArg (V c main_arg9) (funext fun a => Fin.ext ?_)
    match a with
    | ⟨0, _⟩ => show win2_3.index t (0 : Fin 1) * 2 + 1 * (j 1).val = win2_5.index t (1 : Fin 2) * 2 + 1 * (j 1).val; omega

/-- An index of the output array is in point `t`'s block iff each coordinate is in the block's range on its axis. -/
theorem mem_blk (t : Fin cfg2.N) (i : S100000x2.Idx) :
    i ∈ ((cfg2.win 5).blk t).view.set ↔ ∀ a : Fin 2, win2_5.index t a * S5000x2.size a ≤ (i a).val ∧ (i a).val < win2_5.index t a * S5000x2.size a + S5000x2.size a := by
  show i ∈ ((View.whole main_v50).slice (win2_5.rect t)).set ↔ _
  rw [View.set_slice_whole, Rect.mem_set_unit]
  exact Iff.rfl

/-- The twenty row blocks tile the output: row `r` lies in block `r / 5000`. -/
theorem cover (i : S100000x2.Idx) : ∃ t : Fin cfg2.N, (cfg2.win 5).flush t = true ∧ i ∈ ((cfg2.win 5).blk t).view.set := by
  have hi0 : (i 0).val < 100000 := (i 0).isLt
  have hi1 : (i 1).val < 2 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 2 ≤ (i 1).val ∧ (i 1).val < win2_5.index t (1 : Fin 2) * 2 + 2; omega

/-- THE OUTPUT ARRAY after the region: the layer of the arrays found on entry. -/
theorem arr (c : Dev nD) : (dat2 V c).arrAt 5 cfg2.N = G V c :=
  (dat2 V c).arrAt_eq_of_cover 5 (G V c) (fun t _ => flushed_eq V c t) cover

end Cert.KernelIdeal.Region2

end
-- ==== Proof.KerValue.lean ====
/-
  The first program's result as one expression of its arguments.

  Walking the eight segments from the launch memory: the first three stretches leave the source and destination rows
  of the edge list, the reciprocal column of the clipped degrees and the neighbour means of the input features; the
  first region leaves the first layer `h1` of those; the next stretch the neighbour means of `h1`; the second region
  the second layer `h2`; the next stretch the neighbour means of `h2`; the last region the result.  Buffers a segment
  does not write are read through it unchanged.  The neighbour means, read entry by entry, are the neighbour sums
  times the reciprocal of the clipped degree (`Sage.meanMul`), so each layer is `Sage.layerMul`.
-/
import proofs.«164896_j82386062671991_1_alg».proof.Proof.KerHost
import proofs.«164896_j82386062671991_1_alg».proof.Proof.Region0
import proofs.«164896_j82386062671991_1_alg».proof.Proof.Region1
import proofs.«164896_j82386062671991_1_alg».proof.Proof.Region2
import proofs.«164896_j82386062671991_1_alg».proof.Proof.SageSpec
import Idealize.ShloMosaic.Lib.Pipeline.Value
import Idealize.ShloMosaic.Lib.ValueIdx

set_option maxRecDepth 16384

noncomputable section

namespace Cert.KernelIdeal.Value

open Cert.KernelIdeal Cert.KernelIdeal.Gen Idealize.ShloMosaic Idealize.ShloMosaic.TcCoe Idealize.ShloMosaic.StableHlo
open Idealize.SL.Sem Idealize.ShloMosaic.Pipeline Idealize.ShloMosaic.ValueIdx

variable (m : (ℓ : Loc nD τ sig) → Buf (Elt Ideal) ℓ) (ρ : Dev nD → PrngReg)

/-! ## The expression -/

/-- The reciprocal column of the clipped degrees. -/
def rcol (c : Dev nD) : FVec Ideal S100000x1 .f32 :=
  HostVal.invcol (HostVal.clipBy (constant (F := Ideal) S_ .f32 0x3F800000#32) (HostVal.deg (HostVal.dst (m ((c : Thread nD τ).loc main_arg1)))))
/-- The neighbour means of a feature array. -/
def meanOf (c : Dev nD) (X : FVec Ideal S100000x128 .f32) : FVec Ideal S100000x128 .f32 :=
  HostVal.mean (HostVal.dst (m ((c : Thread nD τ).loc main_arg1))) (HostVal.src (m ((c : Thread nD τ).loc main_arg1))) X (rcol m c)
/-- The first layer. -/
def h1 (c : Dev nD) : FVec Ideal S100000x128 .f32 :=
  Cert.Sage.relu (Cert.Sage.lin (N := 100000) (d := 128) (o := 128) (meanOf m c (m ((c : Thread nD τ).loc main_arg0))) (m ((c : Thread nD τ).loc main_arg0)) (m ((c : Thread nD τ).loc main_arg2)) (m ((c : Thread nD τ).loc main_arg3)) (m ((c : Thread nD τ).loc main_arg4)))
/-- The second layer. -/
def h2 (c : Dev nD) : FVec Ideal S100000x128 .f32 :=
  Cert.Sage.relu (Cert.Sage.lin (N := 100000) (d := 128) (o := 128) (meanOf m c (h1 m c)) (h1 m c) (m ((c : Thread nD τ).loc main_arg5)) (m ((c : Thread nD τ).loc main_arg6)) (m ((c : Thread nD τ).loc main_arg7)))
/-- The result. -/
def out (c : Dev nD) : FVec Ideal S100000x2 .f32 :=
  Cert.Sage.lin (N := 100000) (d := 128) (o := 2) (meanOf m c (h2 m c)) (h2 m c) (m ((c : Thread nD τ).loc main_arg8)) (m ((c : Thread nD τ).loc main_arg9)) (m ((c : Thread nD τ).loc main_arg10))

/-! ## After the first stretch -/

theorem W1_v1 (c : Dev nD) : W1 m ρ c (Proc.devRef .tc main_v1) = HostVal.src (m ((c : Thread nD τ).loc main_arg1)) := HostVal.read0_v1 (W0 m ρ c)
theorem W1_v3 (c : Dev nD) : W1 m ρ c (Proc.devRef .tc main_v3) = HostVal.dst (m ((c : Thread nD τ).loc main_arg1)) := HostVal.read0_v3 (W0 m ρ c)
theorem W1_v7 (c : Dev nD) : W1 m ρ c (Proc.devRef .tc main_v7) = HostVal.deg (HostVal.dst (m ((c : Thread nD τ).loc main_arg1))) := HostVal.read0_v7 (W0 m ρ c)
theorem W1_cst1 (c : Dev nD) : W1 m ρ c (Proc.devRef .tc main_cst_1) = (constant (F := Ideal) S_ .f32 0x3F800000#32) := HostVal.read0_cst1 (W0 m ρ c)
theorem W1_arg0 (c : Dev nD) : W1 m ρ c (Proc.devRef .tc main_arg0) = (m ((c : Thread nD τ).loc main_arg0)) := HostVal.keep0_arg0 (W0 m ρ c)
theorem W1_arg2 (c : Dev nD) : W1 m ρ c (Proc.devRef .tc main_arg2) = (m ((c : Thread nD τ).loc main_arg2)) := HostVal.keep0_arg2 (W0 m ρ c)
theorem W1_arg3 (c : Dev nD) : W1 m ρ c (Proc.devRef .tc main_arg3) = (m ((c : Thread nD τ).loc main_arg3)) := HostVal.keep0_arg3 (W0 m ρ c)
theorem W1_arg4 (c : Dev nD) : W1 m ρ c (Proc.devRef .tc main_arg4) = (m ((c : Thread nD τ).loc main_arg4)) := HostVal.keep0_arg4 (W0 m ρ c)
theorem W1_arg5 (c : Dev nD) : W1 m ρ c (Proc.devRef .tc main_arg5) = (m ((c : Thread nD τ).loc main_arg5)) := HostVal.keep0_arg5 (W0 m ρ c)
theorem W1_arg6 (c : Dev nD) : W1 m ρ c (Proc.devRef .tc main_arg6) = (m ((c : Thread nD τ).loc main_arg6)) := HostVal.keep0_arg6 (W0 m ρ c)
theorem W1_arg7 (c : Dev nD) : W1 m ρ c (Proc.devRef .tc main_arg7) = (m ((c : Thread nD τ).loc main_arg7)) := HostVal.keep0_arg7 (W0 m ρ c)
theorem W1_arg8 (c : Dev nD) : W1 m ρ c (Proc.devRef .tc main_arg8) = (m ((c : Thread nD τ).loc main_arg8)) := HostVal.keep0_arg8 (W0 m ρ c)
theorem W1_arg9 (c : Dev nD) : W1 m ρ c (Proc.devRef .tc main_arg9) = (m ((c : Thread nD τ).loc main_arg9)) := HostVal.keep0_arg9 (W0 m ρ c)
theorem W1_arg10 (c : Dev nD) : W1 m ρ c (Proc.devRef .tc main_arg10) = (m ((c : Thread nD τ).loc main_arg10)) := HostVal.keep0_arg10 (W0 m ρ c)

/-! ## After the clip call -/

theorem W2_v8 (c : Dev nD) : W2 m ρ c (Proc.devRef .tc main_v8) = HostVal.clipBy (constant (F := Ideal) S_ .f32 0x3F800000#32) (HostVal.deg (HostVal.dst (m ((c : Thread nD τ).loc main_arg1)))) :=
  (HostVal.read0_1 (W1 m ρ c)).trans (congrArg₂ HostVal.clipBy (W1_cst1 m ρ c) (W1_v7 m ρ c))
theorem W2_v1 (c : Dev nD) : W2 m ρ c (Proc.devRef .tc main_v1) = HostVal.src (m ((c : Thread nD τ).loc main_arg1)) := (HostVal.keep0_1_v1 (W1 m ρ c)).trans (W1_v1 m ρ c)
theorem W2_v3 (c : Dev nD) : W2 m ρ c (Proc.devRef .tc main_v3) = HostVal.dst (m ((c : Thread nD τ).loc main_arg1)) := (HostVal.keep0_1_v3 (W1 m ρ c)).trans (W1_v3 m ρ c)
theorem W2_arg0 (c : Dev nD) : W2 m ρ c (Proc.devRef .tc main_arg0) = (m ((c : Thread nD τ).loc main_arg0)) := (HostVal.keep0_1_arg0 (W1 m ρ c)).trans (W1_arg0 m ρ c)
theorem W2_arg2 (c : Dev nD) : W2 m ρ c (Proc.devRef .tc main_arg2) = (m ((c : Thread nD τ).loc main_arg2)) := (HostVal.keep0_1_arg2 (W1 m ρ c)).trans (W1_arg2 m ρ c)
theorem W2_arg3 (c : Dev nD) : W2 m ρ c (Proc.devRef .tc main_arg3) = (m ((c : Thread nD τ).loc main_arg3)) := (HostVal.keep0_1_arg3 (W1 m ρ c)).trans (W1_arg3 m ρ c)
theorem W2_arg4 (c : Dev nD) : W2 m ρ c (Proc.devRef .tc main_arg4) = (m ((c : Thread nD τ).loc main_arg4)) := (HostVal.keep0_1_arg4 (W1 m ρ c)).trans (W1_arg4 m ρ c)
theorem W2_arg5 (c : Dev nD) : W2 m ρ c (Proc.devRef .tc main_arg5) = (m ((c : Thread nD τ).loc main_arg5)) := (HostVal.keep0_1_arg5 (W1 m ρ c)).trans (W1_arg5 m ρ c)
theorem W2_arg6 (c : Dev nD) : W2 m ρ c (Proc.devRef .tc main_arg6) = (m ((c : Thread nD τ).loc main_arg6)) := (HostVal.keep0_1_arg6 (W1 m ρ c)).trans (W1_arg6 m ρ c)
theorem W2_arg7 (c : Dev nD) : W2 m ρ c (Proc.devRef .tc main_arg7) = (m ((c : Thread nD τ).loc main_arg7)) := (HostVal.keep0_1_arg7 (W1 m ρ c)).trans (W1_arg7 m ρ c)
theorem W2_arg8 (c : Dev nD) : W2 m ρ c (Proc.devRef .tc main_arg8) = (m ((c : Thread nD τ).loc main_arg8)) := (HostVal.keep0_1_arg8 (W1 m ρ c)).trans (W1_arg8 m ρ c)
theorem W2_arg9 (c : Dev nD) : W2 m ρ c (Proc.devRef .tc main_arg9) = (m ((c : Thread nD τ).loc main_arg9)) := (HostVal.keep0_1_arg9 (W1 m ρ c)).trans (W1_arg9 m ρ c)
theorem W2_arg10 (c : Dev nD) : W2 m ρ c (Proc.devRef .tc main_arg10) = (m ((c : Thread nD τ).loc main_arg10)) := (HostVal.keep0_1_arg10 (W1 m ρ c)).trans (W1_arg10 m ρ c)

/-! ## At the first region's entry -/

theorem W3_v11 (c : Dev nD) : W3 m ρ c (Proc.devRef .tc main_v11) = rcol m c :=
  (HostVal.read0_2_v11 (W2 m ρ c)).trans (congrArg HostVal.invcol (W2_v8 m ρ c))
theorem W3_v1 (c : Dev nD) : W3 m ρ c (Proc.devRef .tc main_v1) = HostVal.src (m ((c : Thread nD τ).loc main_arg1)) := (HostVal.keep0_2_v1 (W2 m ρ c)).trans (W2_v1 m ρ c)
theorem W3_v3 (c : Dev nD) : W3 m ρ c (Proc.devRef .tc main_v3) = HostVal.dst (m ((c : Thread nD τ).loc main_arg1)) := (HostVal.keep0_2_v3 (W2 m ρ c)).trans (W2_v3 m ρ c)
theorem W3_arg0 (c : Dev nD) : W3 m ρ c (Proc.devRef .tc main_arg0) = (m ((c : Thread nD τ).loc main_arg0)) := (HostVal.keep0_2_arg0 (W2 m ρ c)).trans (W2_arg0 m ρ c)
theorem W3_arg2 (c : Dev nD) : W3 m ρ c (Proc.devRef .tc main_arg2) = (m ((c : Thread nD τ).loc main_arg2)) := (HostVal.keep0_2_arg2 (W2 m ρ c)).trans (W2_arg2 m ρ c)
theorem W3_arg3 (c : Dev nD) : W3 m ρ c (Proc.devRef .tc main_arg3) = (m ((c : Thread nD τ).loc main_arg3)) := (HostVal.keep0_2_arg3 (W2 m ρ c)).trans (W2_arg3 m ρ c)
theorem W3_arg4 (c : Dev nD) : W3 m ρ c (Proc.devRef .tc main_arg4) = (m ((c : Thread nD τ).loc main_arg4)) := (HostVal.keep0_2_arg4 (W2 m ρ c)).trans (W2_arg4 m ρ c)
theorem W3_arg5 (c : Dev nD) : W3 m ρ c (Proc.devRef .tc main_arg5) = (m ((c : Thread nD τ).loc main_arg5)) := (HostVal.keep0_2_arg5 (W2 m ρ c)).trans (W2_arg5 m ρ c)
theorem W3_arg6 (c : Dev nD) : W3 m ρ c (Proc.devRef .tc main_arg6) = (m ((c : Thread nD τ).loc main_arg6)) := (HostVal.keep0_2_arg6 (W2 m ρ c)).trans (W2_arg6 m ρ c)
theorem W3_arg7 (c : Dev nD) : W3 m ρ c (Proc.devRef .tc main_arg7) = (m ((c : Thread nD τ).loc main_arg7)) := (HostVal.keep0_2_arg7 (W2 m ρ c)).trans (W2_arg7 m ρ c)
theorem W3_arg8 (c : Dev nD) : W3 m ρ c (Proc.devRef .tc main_arg8) = (m ((c : Thread nD τ).loc main_arg8)) := (HostVal.keep0_2_arg8 (W2 m ρ c)).trans (W2_arg8 m ρ c)
theorem W3_arg9 (c : Dev nD) : W3 m ρ c (Proc.devRef .tc main_arg9) = (m ((c : Thread nD τ).loc main_arg9)) := (HostVal.keep0_2_arg9 (W2 m ρ c)).trans (W2_arg9 m ρ c)
theorem W3_arg10 (c : Dev nD) : W3 m ρ c (Proc.devRef .tc main_arg10) = (m ((c : Thread nD τ).loc main_arg10)) := (HostVal.keep0_2_arg10 (W2 m ρ c)).trans (W2_arg10 m ρ c)
theorem W3_v23 (c : Dev nD) : W3 m ρ c (Proc.devRef .tc main_v23) = meanOf m c (m ((c : Thread nD τ).loc main_arg0)) :=
  (HostVal.read0_2_v23 (W2 m ρ c)).trans (by rw [W2_v3 m ρ c, W2_v1 m ρ c, W2_arg0 m ρ c, W2_v8 m ρ c]; rfl)

/-! ## After the first region -/

theorem W4_v24 (c : Dev nD) : W4 m ρ c (Proc.devRef .tc main_v24) = h1 m c :=
  (W4_arr m ρ c 5).trans ((Region0.arr (V3 m ρ) c).trans (by
    show Cert.Sage.relu (Cert.Sage.lin (N := 100000) (d := 128) (o := 128) (W3 m ρ c (Proc.devRef .tc main_v23)) (W3 m ρ c (Proc.devRef .tc main_arg0))
      (W3 m ρ c (Proc.devRef .tc main_arg2)) (W3 m ρ c (Proc.devRef .tc main_arg3)) (W3 m ρ c (Proc.devRef .tc main_arg4))) = _
    rw [W3_v23 m ρ c, W3_arg0 m ρ c, W3_arg2 m ρ c, W3_arg3 m ρ c, W3_arg4 m ρ c]; rfl))
theorem W4_v1 (c : Dev nD) : W4 m ρ c (Proc.devRef .tc main_v1) = HostVal.src (m ((c : Thread nD τ).loc main_arg1)) := (W4_of_ne m ρ c main_v1 (by decide)).trans (W3_v1 m ρ c)
theorem W4_v3 (c : Dev nD) : W4 m ρ c (Proc.devRef .tc main_v3) = HostVal.dst (m ((c : Thread nD τ).loc main_arg1)) := (W4_of_ne m ρ c main_v3 (by decide)).trans (W3_v3 m ρ c)
theorem W4_v11 (c : Dev nD) : W4 m ρ c (Proc.devRef .tc main_v11) = rcol m c := (W4_of_ne m ρ c main_v11 (by decide)).trans (W3_v11 m ρ c)
theorem W4_arg5 (c : Dev nD) : W4 m ρ c (Proc.devRef .tc main_arg5) = (m ((c : Thread nD τ).loc main_arg5)) := (W4_of_ne m ρ c main_arg5 (by decide)).trans (W3_arg5 m ρ c)
theorem W4_arg6 (c : Dev nD) : W4 m ρ c (Proc.devRef .tc main_arg6) = (m ((c : Thread nD τ).loc main_arg6)) := (W4_of_ne m ρ c main_arg6 (by decide)).trans (W3_arg6 m ρ c)
theorem W4_arg7 (c : Dev nD) : W4 m ρ c (Proc.devRef .tc main_arg7) = (m ((c : Thread nD τ).loc main_arg7)) := (W4_of_ne m ρ c main_arg7 (by decide)).trans (W3_arg7 m ρ c)
theorem W4_arg8 (c : Dev nD) : W4 m ρ c (Proc.devRef .tc main_arg8) = (m ((c : Thread nD τ).loc main_arg8)) := (W4_of_ne m ρ c main_arg8 (by decide)).trans (W3_arg8 m ρ c)
theorem W4_arg9 (c : Dev nD) : W4 m ρ c (Proc.devRef .tc main_arg9) = (m ((c : Thread nD τ).loc main_arg9)) := (W4_of_ne m ρ c main_arg9 (by decide)).trans (W3_arg9 m ρ c)
theorem W4_arg10 (c : Dev nD) : W4 m ρ c (Proc.devRef .tc main_arg10) = (m ((c : Thread nD τ).loc main_arg10)) := (W4_of_ne m ρ c main_arg10 (by decide)).trans (W3_arg10 m ρ c)

/-! ## At the second region's entry -/

theorem W5_v36 (c : Dev nD) : W5 m ρ c (Proc.devRef .tc main_v36) = meanOf m c (h1 m c) :=
  (HostVal.read1 (W4 m ρ c)).trans (by rw [W4_v3 m ρ c, W4_v1 m ρ c, W4_v24 m ρ c, W4_v11 m ρ c]; rfl)
theorem W5_v24 (c : Dev nD) : W5 m ρ c (Proc.devRef .tc main_v24) = h1 m c := (HostVal.keep1_v24 (W4 m ρ c)).trans (W4_v24 m ρ c)
theorem W5_v1 (c : Dev nD) : W5 m ρ c (Proc.devRef .tc main_v1) = HostVal.src (m ((c : Thread nD τ).loc main_arg1)) := (HostVal.keep1_v1 (W4 m ρ c)).trans (W4_v1 m ρ c)
theorem W5_v3 (c : Dev nD) : W5 m ρ c (Proc.devRef .tc main_v3) = HostVal.dst (m ((c : Thread nD τ).loc main_arg1)) := (HostVal.keep1_v3 (W4 m ρ c)).trans (W4_v3 m ρ c)
theorem W5_v11 (c : Dev nD) : W5 m ρ c (Proc.devRef .tc main_v11) = rcol m c := (HostVal.keep1_v11 (W4 m ρ c)).trans (W4_v11 m ρ c)
theorem W5_arg5 (c : Dev nD) : W5 m ρ c (Proc.devRef .tc main_arg5) = (m ((c : Thread nD τ).loc main_arg5)) := (HostVal.keep1_arg5 (W4 m ρ c)).trans (W4_arg5 m ρ c)
theorem W5_arg6 (c : Dev nD) : W5 m ρ c (Proc.devRef .tc main_arg6) = (m ((c : Thread nD τ).loc main_arg6)) := (HostVal.keep1_arg6 (W4 m ρ c)).trans (W4_arg6 m ρ c)
theorem W5_arg7 (c : Dev nD) : W5 m ρ c (Proc.devRef .tc main_arg7) = (m ((c : Thread nD τ).loc main_arg7)) := (HostVal.keep1_arg7 (W4 m ρ c)).trans (W4_arg7 m ρ c)
theorem W5_arg8 (c : Dev nD) : W5 m ρ c (Proc.devRef .tc main_arg8) = (m ((c : Thread nD τ).loc main_arg8)) := (HostVal.keep1_arg8 (W4 m ρ c)).trans (W4_arg8 m ρ c)
theorem W5_arg9 (c : Dev nD) : W5 m ρ c (Proc.devRef .tc main_arg9) = (m ((c : Thread nD τ).loc main_arg9)) := (HostVal.keep1_arg9 (W4 m ρ c)).trans (W4_arg9 m ρ c)
theorem W5_arg10 (c : Dev nD) : W5 m ρ c (Proc.devRef .tc main_arg10) = (m ((c : Thread nD τ).loc main_arg10)) := (HostVal.keep1_arg10 (W4 m ρ c)).trans (W4_arg10 m ρ c)

/-! ## After the second region -/

theorem W6_v37 (c : Dev nD) : W6 m ρ c (Proc.devRef .tc main_v37) = h2 m c :=
  (W6_arr m ρ c 5).trans ((Region1.arr (V5 m ρ) c).trans (by
    show Cert.Sage.relu (Cert.Sage.lin (N := 100000) (d := 128) (o := 128) (W5 m ρ c (Proc.devRef .tc main_v36)) (W5 m ρ c (Proc.devRef .tc main_v24))
      (W5 m ρ c (Proc.devRef .tc main_arg5)) (W5 m ρ c (Proc.devRef .tc main_arg6)) (W5 m ρ c (Proc.devRef .tc main_arg7))) = _
    rw [W5_v36 m ρ c, W5_v24 m ρ c, W5_arg5 m ρ c, W5_arg6 m ρ c, W5_arg7 m ρ c]; rfl))
theorem W6_v1 (c : Dev nD) : W6 m ρ c (Proc.devRef .tc main_v1) = HostVal.src (m ((c : Thread nD τ).loc main_arg1)) := (W6_of_ne m ρ c main_v1 (by decide)).trans (W5_v1 m ρ c)
theorem W6_v3 (c : Dev nD) : W6 m ρ c (Proc.devRef .tc main_v3) = HostVal.dst (m ((c : Thread nD τ).loc main_arg1)) := (W6_of_ne m ρ c main_v3 (by decide)).trans (W5_v3 m ρ c)
theorem W6_v11 (c : Dev nD) : W6 m ρ c (Proc.devRef .tc main_v11) = rcol m c := (W6_of_ne m ρ c main_v11 (by decide)).trans (W5_v11 m ρ c)
theorem W6_arg8 (c : Dev nD) : W6 m ρ c (Proc.devRef .tc main_arg8) = (m ((c : Thread nD τ).loc main_arg8)) := (W6_of_ne m ρ c main_arg8 (by decide)).trans (W5_arg8 m ρ c)
theorem W6_arg9 (c : Dev nD) : W6 m ρ c (Proc.devRef .tc main_arg9) = (m ((c : Thread nD τ).loc main_arg9)) := (W6_of_ne m ρ c main_arg9 (by decide)).trans (W5_arg9 m ρ c)
theorem W6_arg10 (c : Dev nD) : W6 m ρ c (Proc.devRef .tc main_arg10) = (m ((c : Thread nD τ).loc main_arg10)) := (W6_of_ne m ρ c main_arg10 (by decide)).trans (W5_arg10 m ρ c)

/-! ## At the third region's entry -/

theorem W7_v49 (c : Dev nD) : W7 m ρ c (Proc.devRef .tc main_v49) = meanOf m c (h2 m c) :=
  (HostVal.read2 (W6 m ρ c)).trans (by rw [W6_v3 m ρ c, W6_v1 m ρ c, W6_v37 m ρ c, W6_v11 m ρ c]; rfl)
theorem W7_v37 (c : Dev nD) : W7 m ρ c (Proc.devRef .tc main_v37) = h2 m c := (HostVal.keep2_v37 (W6 m ρ c)).trans (W6_v37 m ρ c)
theorem W7_arg8 (c : Dev nD) : W7 m ρ c (Proc.devRef .tc main_arg8) = (m ((c : Thread nD τ).loc main_arg8)) := (HostVal.keep2_arg8 (W6 m ρ c)).trans (W6_arg8 m ρ c)
theorem W7_arg9 (c : Dev nD) : W7 m ρ c (Proc.devRef .tc main_arg9) = (m ((c : Thread nD τ).loc main_arg9)) := (HostVal.keep2_arg9 (W6 m ρ c)).trans (W6_arg9 m ρ c)
theorem W7_arg10 (c : Dev nD) : W7 m ρ c (Proc.devRef .tc main_arg10) = (m ((c : Thread nD τ).loc main_arg10)) := (HostVal.keep2_arg10 (W6 m ρ c)).trans (W6_arg10 m ρ c)

/-! ## The result -/

/-- The result buffer at the last boundary is the expression. -/
theorem W8_v50 (c : Dev nD) : W8 m ρ c (Proc.devRef .tc main_v50) = out m c :=
  (W8_arr m ρ c 5).trans ((Region2.arr (V7 m ρ) c).trans (by
    show Cert.Sage.lin (N := 100000) (d := 128) (o := 2) (W7 m ρ c (Proc.devRef .tc main_v49)) (W7 m ρ c (Proc.devRef .tc main_v37))
      (W7 m ρ c (Proc.devRef .tc main_arg8)) (W7 m ρ c (Proc.devRef .tc main_arg9)) (W7 m ρ c (Proc.devRef .tc main_arg10)) = _
    rw [W7_v49 m ρ c, W7_v37 m ρ c, W7_arg8 m ρ c, W7_arg9 m ρ c, W7_arg10 m ρ c]; rfl))

/-! ## The neighbour means entry by entry -/

/-- The host's neighbour means are the neighbour sums times the reciprocal of the degree clipped at one. -/
theorem mean_eq_meanMul (d s : IVec S1600000 32) (X : FVec Ideal S100000x128 .f32)
    (g : FVec Ideal S100000 .f32) :
    HostVal.mean d s X (HostVal.invcol (HostVal.clipBy (constant (F := Ideal) S_ .f32 0x3F800000#32) g))
      = Cert.Sage.meanMul (N := 100000) (d := 128) (HostVal.agg d s X) g := by
  unfold HostVal.mean
  generalize HostVal.agg d s X = A
  funext j
  obtain ⟨p, q, rfl⟩ : ∃ (p : Fin 100000) (q : Fin 128), j = ix2 p q := ⟨j 0, j 1, eq_ix2 j⟩
  unfold HostVal.invcol HostVal.clipBy Cert.Sage.meanMul
  refine (mulf_apply A _ (ix2 p q)).trans ?_
  show A (ix2 p q) * _ = A (ix2 p q) * _
  refine congrArg (fun y : EReal => A (ix2 p q) * y) ?_
  refine (broadcastInDim_apply _ bcast_S100000x1_S100000x128_0_1 _ (ix2 p q) (ix2 p (0 : Fin 1)) (fun a => ?_)).trans ?_
  · match a with
    | ⟨0, _⟩ => show p.val = if (100000 : Nat) = 1 then 0 else p.val; rw [if_neg (by decide)]
    | ⟨1, _⟩ => show 0 = if (1 : Nat) = 1 then 0 else q.val; rw [if_pos rfl]
  refine (broadcastInDim_apply _ bcast_S100000_S100000x1_0 _ (ix2 p (0 : Fin 1)) (ix1 p) (fun a => ?_)).trans ?_
  · match a with
    | ⟨0, _⟩ => show p.val = if (100000 : Nat) = 1 then 0 else p.val; rw [if_neg (by decide)]
  rfl

end Cert.KernelIdeal.Value

end
-- ==== Proof.RefLayers.lean ====
/-
  The second program's three layers, each read entry by entry at the ideal instance.

  Every layer of the second program divides the aggregated neighbour sums by the clipped degree, multiplies by the
  transposed left weights, adds the bias, and adds the input features times the transposed right weights (the first
  two layers then take the maximum with zero).  Reading each operation at an entry and naming the entries' coordinates
  gives `Sage.layerDiv` of the layer's aggregated sums, degrees, input features and weights.
-/
import proofs.«164896_j82386062671991_1_alg».proof.Proof.Gen.ReferenceIdeal.Read
import proofs.«164896_j82386062671991_1_alg».proof.Proof.SageSpec

noncomputable section

open scoped BigOperators

namespace Cert.ReferenceIdeal.Layers

open Cert.ReferenceIdeal Cert.ReferenceIdeal.Gen Cert.ReferenceIdeal.Read Idealize.ShloMosaic Idealize.ShloMosaic.ValueIdx

/-- Layer 1's neighbour means: the aggregated sums divided by the degrees clipped at one. -/
theorem mean1 (x0 : (⟨S100000x128, .f32⟩ : BufTy).Contents (Elt Ideal)) (x1 : (⟨S2x1600000, .i32⟩ : BufTy).Contents (Elt Ideal)) :
    val_main_v21 (F := Ideal) x0 x1 = Cert.Sage.meanDiv (N := 100000) (d := 128) (val_main_v13 (F := Ideal) x0 x1) (val_main_v17 (F := Ideal) x1) := by
  funext j
  obtain ⟨p, k, rfl⟩ : ∃ (p : Fin 100000) (k : Fin 128), j = ix2 p k := ⟨j 0, j 1, eq_ix2 j⟩
  rw [val_main_v21_apply, val_main_v20_apply, val_main_v19_apply, val_main_v18_apply, val_main_call0_v1_apply,
    val_main_call0_v0_apply, val_main_cst_3_apply]
  generalize val_main_v13 (F := Ideal) x0 x1 = A
  generalize val_main_v17 (F := Ideal) x1 = g
  have h2 : idx_main_v19 (idx_main_v20 (ix2 p k)) = ix1 p := funext fun a => Fin.ext (by
    match a with | ⟨0, _⟩ => rfl)
  rw [h2]
  rfl

/-- Layer 1 of the second program, at the ideal instance: `Sage.layerDiv` of its aggregated sums, its degrees, its input
    features and its weights, under the activation. -/
theorem layer1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v30 (F := Ideal) x0 x1 x2 x3 x4
      = Cert.Sage.relu (Cert.Sage.layerDiv (N := 100000) (d := 128) (o := 128) (val_main_v13 (F := Ideal) x0 x1) (val_main_v17 (F := Ideal) x1) (x0) x2 x3 x4) := by
  unfold Cert.Sage.layerDiv
  rw [← mean1]
  funext i
  obtain ⟨p, q, rfl⟩ : ∃ (p : Fin 100000) (q : Fin 128), i = ix2 p q := ⟨i 0, i 1, eq_ix2 i⟩
  rw [val_main_v30_apply, val_main_v29_apply, val_main_v26_apply, val_main_v23_apply, val_main_v28_apply, val_main_v25_apply, val_main_v24_apply, val_main_call1_v0_apply, val_main_call1_cst_apply]
  generalize val_main_v21 (F := Ideal) x0 x1 = M

  have h1 : ∀ k : Fin 128, lidx_main_v23 (ix2 p q) k = ix2 p k := fun k => funext fun a => Fin.ext (by
    match a with | ⟨0, _⟩ => rfl | ⟨1, _⟩ => rfl)
  have h3 : ∀ k : Fin 128, idx_main_v22 (ridx_main_v23 (ix2 p q) k) = ix2 q k := fun k => funext fun a => Fin.ext (by
    match a with | ⟨0, _⟩ => rfl | ⟨1, _⟩ => rfl)
  have h4 : idx_main_v24 (idx_main_v25 (ix2 p q)) = ix1 q := funext fun a => Fin.ext (by
    match a with | ⟨0, _⟩ => rfl)
  have h5 : ∀ k : Fin 128, lidx_main_v28 (ix2 p q) k = ix2 p k := fun k => funext fun a => Fin.ext (by
    match a with | ⟨0, _⟩ => rfl | ⟨1, _⟩ => rfl)
  have h6 : ∀ k : Fin 128, idx_main_v27 (ridx_main_v28 (ix2 p q) k) = ix2 q k := fun k => funext fun a => Fin.ext (by
    match a with | ⟨0, _⟩ => rfl | ⟨1, _⟩ => rfl)
  refine congrArg (fun y : EReal => max y Cert.Sage.zeroW) ?_
  refine congrArg₂ (fun a b : EReal => a + b) (congrArg₂ (fun a b : EReal => a + b) (Finset.sum_congr rfl fun k _ => ?_) (congrArg x3 h4))
    (Finset.sum_congr rfl fun k _ => ?_)
  · rw [h1 k, val_main_v22_apply, h3 k]
  · rw [h5 k, val_main_v27_apply, h6 k]

/-- Layer 2's neighbour means: the aggregated sums divided by the degrees clipped at one. -/
theorem mean2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v48 (F := Ideal) x0 x1 x2 x3 x4 = Cert.Sage.meanDiv (N := 100000) (d := 128) (val_main_v40 (F := Ideal) x0 x1 x2 x3 x4) (val_main_v44 (F := Ideal) x1) := by
  funext j
  obtain ⟨p, k, rfl⟩ : ∃ (p : Fin 100000) (k : Fin 128), j = ix2 p k := ⟨j 0, j 1, eq_ix2 j⟩
  rw [val_main_v48_apply, val_main_v47_apply, val_main_v46_apply, val_main_v45_apply, val_main_call2_v1_apply,
    val_main_call2_v0_apply, val_main_cst_9_apply]
  generalize val_main_v40 (F := Ideal) x0 x1 x2 x3 x4 = A
  generalize val_main_v44 (F := Ideal) x1 = g
  have h2 : idx_main_v46 (idx_main_v47 (ix2 p k)) = ix1 p := funext fun a => Fin.ext (by
    match a with | ⟨0, _⟩ => rfl)
  rw [h2]
  rfl

/-- Layer 2 of the second program, at the ideal instance: `Sage.layerDiv` of its aggregated sums, its degrees, its input
    features and its weights, under the activation. -/
theorem layer2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v57 (F := Ideal) x0 x1 x2 x3 x4 x5 x6 x7
      = Cert.Sage.relu (Cert.Sage.layerDiv (N := 100000) (d := 128) (o := 128) (val_main_v40 (F := Ideal) x0 x1 x2 x3 x4) (val_main_v44 (F := Ideal) x1) (val_main_v30 (F := Ideal) x0 x1 x2 x3 x4) x5 x6 x7) := by
  unfold Cert.Sage.layerDiv
  rw [← mean2]
  funext i
  obtain ⟨p, q, rfl⟩ : ∃ (p : Fin 100000) (q : Fin 128), i = ix2 p q := ⟨i 0, i 1, eq_ix2 i⟩
  rw [val_main_v57_apply, val_main_v56_apply, val_main_v53_apply, val_main_v50_apply, val_main_v55_apply, val_main_v52_apply, val_main_v51_apply, val_main_call3_v0_apply, val_main_call3_cst_apply]
  generalize val_main_v48 (F := Ideal) x0 x1 x2 x3 x4 = M
  generalize val_main_v30 (F := Ideal) x0 x1 x2 x3 x4 = X
  have h1 : ∀ k : Fin 128, lidx_main_v50 (ix2 p q) k = ix2 p k := fun k => funext fun a => Fin.ext (by
    match a with | ⟨0, _⟩ => rfl | ⟨1, _⟩ => rfl)
  have h3 : ∀ k : Fin 128, idx_main_v49 (ridx_main_v50 (ix2 p q) k) = ix2 q k := fun k => funext fun a => Fin.ext (by
    match a with | ⟨0, _⟩ => rfl | ⟨1, _⟩ => rfl)
  have h4 : idx_main_v51 (idx_main_v52 (ix2 p q)) = ix1 q := funext fun a => Fin.ext (by
    match a with | ⟨0, _⟩ => rfl)
  have h5 : ∀ k : Fin 128, lidx_main_v55 (ix2 p q) k = ix2 p k := fun k => funext fun a => Fin.ext (by
    match a with | ⟨0, _⟩ => rfl | ⟨1, _⟩ => rfl)
  have h6 : ∀ k : Fin 128, idx_main_v54 (ridx_main_v55 (ix2 p q) k) = ix2 q k := fun k => funext fun a => Fin.ext (by
    match a with | ⟨0, _⟩ => rfl | ⟨1, _⟩ => rfl)
  refine congrArg (fun y : EReal => max y Cert.Sage.zeroW) ?_
  refine congrArg₂ (fun a b : EReal => a + b) (congrArg₂ (fun a b : EReal => a + b) (Finset.sum_congr rfl fun k _ => ?_) (congrArg x6 h4))
    (Finset.sum_congr rfl fun k _ => ?_)
  · rw [h1 k, val_main_v49_apply, h3 k]
  · rw [h5 k, val_main_v54_apply, h6 k]

/-- Layer 3's neighbour means: the aggregated sums divided by the degrees clipped at one. -/
theorem mean3 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v75 (F := Ideal) x0 x1 x2 x3 x4 x5 x6 x7 = Cert.Sage.meanDiv (N := 100000) (d := 128) (val_main_v67 (F := Ideal) x0 x1 x2 x3 x4 x5 x6 x7) (val_main_v71 (F := Ideal) x1) := by
  funext j
  obtain ⟨p, k, rfl⟩ : ∃ (p : Fin 100000) (k : Fin 128), j = ix2 p k := ⟨j 0, j 1, eq_ix2 j⟩
  rw [val_main_v75_apply, val_main_v74_apply, val_main_v73_apply, val_main_v72_apply, val_main_call4_v1_apply,
    val_main_call4_v0_apply, val_main_cst_15_apply]
  generalize val_main_v67 (F := Ideal) x0 x1 x2 x3 x4 x5 x6 x7 = A
  generalize val_main_v71 (F := Ideal) x1 = g
  have h2 : idx_main_v73 (idx_main_v74 (ix2 p k)) = ix1 p := funext fun a => Fin.ext (by
    match a with | ⟨0, _⟩ => rfl)
  rw [h2]
  rfl

/-- Layer 3 of the second program, at the ideal instance: `Sage.layerDiv` of its aggregated sums, its degrees, its input
    features and its weights. -/
theorem layer3 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S2x128, .f32⟩ : BufTy).Contents (Elt Ideal)) (x9 : (⟨S2, .f32⟩ : BufTy).Contents (Elt Ideal)) (x10 : (⟨S2x128, .f32⟩ : BufTy).Contents (Elt Ideal)) :
    val_main_v83 (F := Ideal) x0 x1 x2 x3 x4 x5 x6 x7 x8 x9 x10
      = Cert.Sage.layerDiv (N := 100000) (d := 128) (o := 2) (val_main_v67 (F := Ideal) x0 x1 x2 x3 x4 x5 x6 x7) (val_main_v71 (F := Ideal) x1) (val_main_v57 (F := Ideal) x0 x1 x2 x3 x4 x5 x6 x7) x8 x9 x10 := by
  unfold Cert.Sage.layerDiv
  rw [← mean3]
  funext i
  obtain ⟨p, q, rfl⟩ : ∃ (p : Fin 100000) (q : Fin 2), i = ix2 p q := ⟨i 0, i 1, eq_ix2 i⟩
  rw [val_main_v83_apply, val_main_v80_apply, val_main_v77_apply, val_main_v82_apply, val_main_v79_apply, val_main_v78_apply]
  generalize val_main_v75 (F := Ideal) x0 x1 x2 x3 x4 x5 x6 x7 = M
  generalize val_main_v57 (F := Ideal) x0 x1 x2 x3 x4 x5 x6 x7 = X
  have h1 : ∀ k : Fin 128, lidx_main_v77 (ix2 p q) k = ix2 p k := fun k => funext fun a => Fin.ext (by
    match a with | ⟨0, _⟩ => rfl | ⟨1, _⟩ => rfl)
  have h3 : ∀ k : Fin 128, idx_main_v76 (ridx_main_v77 (ix2 p q) k) = ix2 q k := fun k => funext fun a => Fin.ext (by
    match a with | ⟨0, _⟩ => rfl | ⟨1, _⟩ => rfl)
  have h4 : idx_main_v78 (idx_main_v79 (ix2 p q)) = ix1 q := funext fun a => Fin.ext (by
    match a with | ⟨0, _⟩ => rfl)
  have h5 : ∀ k : Fin 128, lidx_main_v82 (ix2 p q) k = ix2 p k := fun k => funext fun a => Fin.ext (by
    match a with | ⟨0, _⟩ => rfl | ⟨1, _⟩ => rfl)
  have h6 : ∀ k : Fin 128, idx_main_v81 (ridx_main_v82 (ix2 p q) k) = ix2 q k := fun k => funext fun a => Fin.ext (by
    match a with | ⟨0, _⟩ => rfl | ⟨1, _⟩ => rfl)

  refine congrArg₂ (fun a b : EReal => a + b) (congrArg₂ (fun a b : EReal => a + b) (Finset.sum_congr rfl fun k _ => ?_) (congrArg x9 h4))
    (Finset.sum_congr rfl fun k _ => ?_)
  · rw [h1 k, val_main_v76_apply, h3 k]
  · rw [h5 k, val_main_v81_apply, h6 k]

end Cert.ReferenceIdeal.Layers

end
-- ==== Proof.Bridge.lean ====
/-
  The two programs compute one function.

  Both programs take the neighbour sums and the degrees by the same host operations (a gather by wrapped source, a
  scatter-add by destination), which are carried here as opaque functions `agg` and `deg` of the edge list and never
  opened.  With them, each layer of the first program is `Sage.layerMul` and each layer of the second is
  `Sage.layerDiv` of the same aggregated sums, degrees, input features and weights, and those are one function
  (`Sage.layerDiv_eq_layerMul`: a quotient by the clipped degree is the product with its reciprocal; sums of
  extended reals commute).  Layer by layer, the first program's expression is the second program's result term.
-/
import proofs.«164896_j82386062671991_1_alg».proof.Proof.KerValue
import proofs.«164896_j82386062671991_1_alg».proof.Proof.RefLayers
import proofs.«164896_j82386062671991_1_alg».proof.Proof.SageSpec

set_option maxRecDepth 16384

noncomputable section

namespace Cert.Bridge

open Cert.KernelIdeal Cert.KernelIdeal.Gen Idealize.ShloMosaic Idealize.ShloMosaic.TcCoe
open Idealize.SL.Sem Idealize.ShloMosaic.Pipeline Idealize.ShloMosaic.ValueIdx

/-! ## Equal operands give equal gathers and scatters (the operations themselves are never opened) -/

theorem scatterAdd_congr {s si u : Shape} {w : Nat} {φ : FTy} (D D' : ScatterDims s si u) (hD : D = D')
    (x x' : FVec Ideal s φ) (hx : x = x') (i i' : IVec si w) (hi : i = i') (v v' : FVec Ideal u φ) (hv : v = v') :
    Host.scatterAdd (F := Ideal) D x i v = Host.scatterAdd (F := Ideal) D' x' i' v' := by
  subst hD; subst hx; subst hi; subst hv; rfl

theorem gather_congr {s si t : Shape} {w : Nat} {α : Type} (D D' : GatherDims s si t) (hD : D = D')
    (x : s.Idx → α) (i i' : IVec si w) (hi : i = i') :
    Host.gather D x i = Host.gather D' x i' := by
  subst hD; subst hi; rfl

/-! ## The shared host operations: the two spellings are one term -/

theorem dst_eq (x1 : (⟨S2x1600000, .i32⟩ : BufTy).Contents (Elt Ideal)) :
    Cert.ReferenceIdeal.Read.val_main_v3 (F := Ideal) x1 = Cert.KernelIdeal.HostVal.dst x1 := rfl
theorem src_eq (x1 : (⟨S2x1600000, .i32⟩ : BufTy).Contents (Elt Ideal)) :
    Cert.ReferenceIdeal.Read.val_main_v1 (F := Ideal) x1 = Cert.KernelIdeal.HostVal.src x1 := rfl

/-- The degrees, as each layer of the second program recomputes them. -/
theorem deg1 (x1 : (⟨S2x1600000, .i32⟩ : BufTy).Contents (Elt Ideal)) :
    Cert.ReferenceIdeal.Read.val_main_v17 (F := Ideal) x1 = Cert.KernelIdeal.HostVal.deg (Cert.KernelIdeal.HostVal.dst x1) := by
  unfold Cert.ReferenceIdeal.Read.val_main_v17 Cert.ReferenceIdeal.Read.val_main_v16 Cert.ReferenceIdeal.Read.val_main_v15 Cert.ReferenceIdeal.Read.val_main_v14 Cert.ReferenceIdeal.Read.val_main_cst_1 Cert.ReferenceIdeal.Read.val_main_cst_2
  rw [dst_eq]
  unfold Cert.KernelIdeal.HostVal.deg
  exact scatterAdd_congr _ _ rfl _ _ rfl _ _ rfl _ _ rfl
theorem deg2 (x1 : (⟨S2x1600000, .i32⟩ : BufTy).Contents (Elt Ideal)) :
    Cert.ReferenceIdeal.Read.val_main_v44 (F := Ideal) x1 = Cert.KernelIdeal.HostVal.deg (Cert.KernelIdeal.HostVal.dst x1) := by
  unfold Cert.ReferenceIdeal.Read.val_main_v44 Cert.ReferenceIdeal.Read.val_main_v43 Cert.ReferenceIdeal.Read.val_main_v42 Cert.ReferenceIdeal.Read.val_main_v41 Cert.ReferenceIdeal.Read.val_main_cst_7 Cert.ReferenceIdeal.Read.val_main_cst_8
  rw [dst_eq]
  unfold Cert.KernelIdeal.HostVal.deg
  exact scatterAdd_congr _ _ rfl _ _ rfl _ _ rfl _ _ rfl
theorem deg3 (x1 : (⟨S2x1600000, .i32⟩ : BufTy).Contents (Elt Ideal)) :
    Cert.ReferenceIdeal.Read.val_main_v71 (F := Ideal) x1 = Cert.KernelIdeal.HostVal.deg (Cert.KernelIdeal.HostVal.dst x1) := by
  unfold Cert.ReferenceIdeal.Read.val_main_v71 Cert.ReferenceIdeal.Read.val_main_v70 Cert.ReferenceIdeal.Read.val_main_v69 Cert.ReferenceIdeal.Read.val_main_v68 Cert.ReferenceIdeal.Read.val_main_cst_13 Cert.ReferenceIdeal.Read.val_main_cst_14
  rw [dst_eq]
  unfold Cert.KernelIdeal.HostVal.deg
  exact scatterAdd_congr _ _ rfl _ _ rfl _ _ rfl _ _ rfl

/-- The neighbour sums of a feature array `X`, as each layer of the second program computes them from its input. -/
theorem agg1 (x1 : (⟨S2x1600000, .i32⟩ : BufTy).Contents (Elt Ideal)) (X : (⟨S100000x128, .f32⟩ : BufTy).Contents (Elt Ideal)) :
    Host.scatterAdd (F := Ideal) Cert.ReferenceIdeal.scatter_S100000x128_S1600000x1_S1600000x128_1_0_0_1 (Cert.ReferenceIdeal.Read.val_main_v11 (F := Ideal)) (Cert.ReferenceIdeal.Read.val_main_v12 (F := Ideal) x1)
      (Host.gather Cert.ReferenceIdeal.gather_S100000x128_S1600000x1_S1600000x128_1_0_n_n_0_1_1128 X (Cert.ReferenceIdeal.Read.val_main_v9 (F := Ideal) x1))
      = Cert.KernelIdeal.HostVal.agg (Cert.KernelIdeal.HostVal.dst x1) (Cert.KernelIdeal.HostVal.src x1) X := by
  unfold Cert.ReferenceIdeal.Read.val_main_v11 Cert.ReferenceIdeal.Read.val_main_cst Cert.ReferenceIdeal.Read.val_main_v12 Cert.ReferenceIdeal.Read.val_main_v9 Cert.ReferenceIdeal.Read.val_main_v8 Cert.ReferenceIdeal.Read.val_main_v7 Cert.ReferenceIdeal.Read.val_main_v6 Cert.ReferenceIdeal.Read.val_main_c_0 Cert.ReferenceIdeal.Read.val_main_v5 Cert.ReferenceIdeal.Read.val_main_v4 Cert.ReferenceIdeal.Read.val_main_c
  rw [dst_eq, src_eq]
  unfold Cert.KernelIdeal.HostVal.agg
  exact scatterAdd_congr _ _ rfl _ _ rfl _ _ rfl _ _ (gather_congr _ _ rfl X _ _ rfl)
theorem agg2 (x1 : (⟨S2x1600000, .i32⟩ : BufTy).Contents (Elt Ideal)) (X : (⟨S100000x128, .f32⟩ : BufTy).Contents (Elt Ideal)) :
    Host.scatterAdd (F := Ideal) Cert.ReferenceIdeal.scatter_S100000x128_S1600000x1_S1600000x128_1_0_0_1 (Cert.ReferenceIdeal.Read.val_main_v38 (F := Ideal)) (Cert.ReferenceIdeal.Read.val_main_v39 (F := Ideal) x1)
      (Host.gather Cert.ReferenceIdeal.gather_S100000x128_S1600000x1_S1600000x128_1_0_n_n_0_1_1128 X (Cert.ReferenceIdeal.Read.val_main_v36 (F := Ideal) x1))
      = Cert.KernelIdeal.HostVal.agg (Cert.KernelIdeal.HostVal.dst x1) (Cert.KernelIdeal.HostVal.src x1) X := by
  unfold Cert.ReferenceIdeal.Read.val_main_v38 Cert.ReferenceIdeal.Read.val_main_cst_6 Cert.ReferenceIdeal.Read.val_main_v39 Cert.ReferenceIdeal.Read.val_main_v36 Cert.ReferenceIdeal.Read.val_main_v35 Cert.ReferenceIdeal.Read.val_main_v34 Cert.ReferenceIdeal.Read.val_main_v33 Cert.ReferenceIdeal.Read.val_main_c_5 Cert.ReferenceIdeal.Read.val_main_v32 Cert.ReferenceIdeal.Read.val_main_v31 Cert.ReferenceIdeal.Read.val_main_c_4
  rw [dst_eq, src_eq]
  unfold Cert.KernelIdeal.HostVal.agg
  exact scatterAdd_congr _ _ rfl _ _ rfl _ _ rfl _ _ (gather_congr _ _ rfl X _ _ rfl)
theorem agg3 (x1 : (⟨S2x1600000, .i32⟩ : BufTy).Contents (Elt Ideal)) (X : (⟨S100000x128, .f32⟩ : BufTy).Contents (Elt Ideal)) :
    Host.scatterAdd (F := Ideal) Cert.ReferenceIdeal.scatter_S100000x128_S1600000x1_S1600000x128_1_0_0_1 (Cert.ReferenceIdeal.Read.val_main_v65 (F := Ideal)) (Cert.ReferenceIdeal.Read.val_main_v66 (F := Ideal) x1)
      (Host.gather Cert.ReferenceIdeal.gather_S100000x128_S1600000x1_S1600000x128_1_0_n_n_0_1_1128 X (Cert.ReferenceIdeal.Read.val_main_v63 (F := Ideal) x1))
      = Cert.KernelIdeal.HostVal.agg (Cert.KernelIdeal.HostVal.dst x1) (Cert.KernelIdeal.HostVal.src x1) X := by
  unfold Cert.ReferenceIdeal.Read.val_main_v65 Cert.ReferenceIdeal.Read.val_main_cst_12 Cert.ReferenceIdeal.Read.val_main_v66 Cert.ReferenceIdeal.Read.val_main_v63 Cert.ReferenceIdeal.Read.val_main_v62 Cert.ReferenceIdeal.Read.val_main_v61 Cert.ReferenceIdeal.Read.val_main_v60 Cert.ReferenceIdeal.Read.val_main_c_11 Cert.ReferenceIdeal.Read.val_main_v59 Cert.ReferenceIdeal.Read.val_main_v58 Cert.ReferenceIdeal.Read.val_main_c_10
  rw [dst_eq, src_eq]
  unfold Cert.KernelIdeal.HostVal.agg
  exact scatterAdd_congr _ _ rfl _ _ rfl _ _ rfl _ _ (gather_congr _ _ rfl X _ _ rfl)

/-! ## Layer by layer -/

variable (m : (ℓ : Loc nD τ sig) → Buf (Elt Ideal) ℓ)

/-- A layer of the first program in terms of the shared sums and degrees. -/
theorem lin_meanOf {o : Nat} (c : Dev nD) (X : (⟨S100000x128, .f32⟩ : BufTy).Contents (Elt Ideal))
    (Wl : (⟨2, ![o, 128]⟩ : Shape).Idx → EReal) (b : (⟨1, ![o]⟩ : Shape).Idx → EReal) (Wr : (⟨2, ![o, 128]⟩ : Shape).Idx → EReal) :
    Cert.Sage.lin (N := 100000) (d := 128) (o := o) (Cert.KernelIdeal.Value.meanOf m c X) X Wl b Wr
      = Cert.Sage.layerDiv (N := 100000) (d := 128) (o := o)
          (Cert.KernelIdeal.HostVal.agg (Cert.KernelIdeal.HostVal.dst (m ((c : Thread nD τ).loc main_arg1))) (Cert.KernelIdeal.HostVal.src (m ((c : Thread nD τ).loc main_arg1))) X)
          (Cert.KernelIdeal.HostVal.deg (Cert.KernelIdeal.HostVal.dst (m ((c : Thread nD τ).loc main_arg1)))) X Wl b Wr := by
  rw [Cert.Sage.layerDiv_eq_layerMul]
  unfold Cert.Sage.layerMul Cert.KernelIdeal.Value.meanOf Cert.KernelIdeal.Value.rcol
  rw [Cert.KernelIdeal.Value.mean_eq_meanMul]

theorem h1_eq (c : Dev nD) : Cert.KernelIdeal.Value.h1 m c = Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  unfold Cert.KernelIdeal.Value.h1
  rw [lin_meanOf m c, Cert.ReferenceIdeal.Layers.layer1, deg1]
  unfold Cert.ReferenceIdeal.Read.val_main_v13 Cert.ReferenceIdeal.Read.val_main_v10
  rw [agg1]

theorem h2_eq (c : Dev nD) : Cert.KernelIdeal.Value.h2 m c = Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Cert.KernelIdeal.Value.h2
  rw [lin_meanOf m c, Cert.ReferenceIdeal.Layers.layer2, deg2, h1_eq]
  unfold Cert.ReferenceIdeal.Read.val_main_v40 Cert.ReferenceIdeal.Read.val_main_v37
  rw [agg2]

/-- THE BRIDGE: the first program's expression is the second program's result term. -/
theorem out_eq (c : Dev nD) : Cert.KernelIdeal.Value.out m c = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Cert.KernelIdeal.Value.out
  rw [lin_meanOf m c, Cert.ReferenceIdeal.Layers.layer3, deg3, h2_eq]
  unfold Cert.ReferenceIdeal.Read.val_main_v67 Cert.ReferenceIdeal.Read.val_main_v64
  rw [agg3]

end Cert.Bridge

end
-- ==== Proof.lean ====
/-
  The claim: a three-layer mean-aggregating graph network (100000 nodes, 1600000 edges, 128 features, two outputs)
  whose per-node combine step `mean · Wlᵀ + x · Wrᵀ + b` (with a maximum against zero after the first two layers) runs
  as a tiled kernel, against the same network written with whole-array operations.

  The three frames: each program terminates, faults nowhere and leaves its arguments as launched — for the two kernel
  programs the generated frame, for the reference its generated run with the result dropped.  The idealization
  rewrote no operation, so `preserves` is trivial.

  The algebraic claim.  At the ideal instance the kernel program's result is, layer by layer,
  `(M · Wlᵀ + X · Wrᵀ) + b` with `M = A · (1 / max(1, deg))`, where `A` are the neighbour sums (features gathered by
  source, scattered by destination and added) and `deg` the in-degrees; the reference's is `(M' · Wlᵀ + b) + X · Wrᵀ`
  with `M' = A / max(1, deg)`.  The clipped degree is at least one, hence not zero, and off zero a quotient IS the
  product with the reciprocal, so `M = M'` on every extended real (no finiteness is used: the precondition is never
  opened); addition of extended reals is commutative and associative; the bf16 casts are the identity; a product
  into a zero accumulator and the host's contraction are the same sum.  The gather and the scatter-add are the same
  host operations in both programs and are never opened.
-/
import proofs.«164896_j82386062671991_1_alg».proof.Defs
import proofs.«164896_j82386062671991_1_alg».proof.Proof.Gen.Kernel
import proofs.«164896_j82386062671991_1_alg».proof.Proof.Gen.Kernel.Skeleton
import proofs.«164896_j82386062671991_1_alg».proof.Proof.Gen.Kernel.Launch
import proofs.«164896_j82386062671991_1_alg».proof.Proof.Gen.Kernel.Points
import proofs.«164896_j82386062671991_1_alg».proof.Proof.Gen.Kernel.Frame
import proofs.«164896_j82386062671991_1_alg».proof.Proof.Gen.KernelIdeal
import proofs.«164896_j82386062671991_1_alg».proof.Proof.Gen.KernelIdeal.Skeleton
import proofs.«164896_j82386062671991_1_alg».proof.Proof.Gen.KernelIdeal.Launch
import proofs.«164896_j82386062671991_1_alg».proof.Proof.Gen.KernelIdeal.Points
import proofs.«164896_j82386062671991_1_alg».proof.Proof.Gen.KernelIdeal.Frame
import proofs.«164896_j82386062671991_1_alg».proof.Proof.Gen.ReferenceIdeal
import proofs.«164896_j82386062671991_1_alg».proof.Proof.Gen.Pre_finite_inputs
import proofs.«164896_j82386062671991_1_alg».proof.Proof.Gen.ReferenceIdeal.Run
import proofs.«164896_j82386062671991_1_alg».proof.Proof.Gen.ReferenceIdeal.Read
import proofs.«164896_j82386062671991_1_alg».proof.Proof.KerRun
import proofs.«164896_j82386062671991_1_alg».proof.Proof.KerValue
import proofs.«164896_j82386062671991_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result at the kernel program's expression of the arguments: the kernel program by its
    run through the eight segments, the reference by its generated run, whose term is that expression layer by
    layer (`Bridge.out_eq`) once its arguments are rewritten to the kernel program's. -/
theorem algebraic : Cert.algebraic_KernelIdeal_ReferenceIdeal := by
  intro m ρ m' ρ' _ hagree
  refine ⟨fun c => Cert.KernelIdeal.Value.out m c, ?_, ?_⟩
  · exact (θ_run Cert.KernelIdeal.defs _ _).mono
      (fun r h c => ⟨(h c).1.trans (Cert.KernelIdeal.Value.W8_v50 m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v83_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2]
    exact (Cert.Bridge.out_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
